-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S2048x1024 : Shape := ⟨2, ![2048, 1024]⟩
abbrev S2 : Shape := ⟨1, ![2]⟩
abbrev S1 : Shape := ⟨1, ![1]⟩
abbrev S_ : Shape := ⟨0, ![]⟩
abbrev S1x2048x1024 : Shape := ⟨3, ![1, 2048, 1024]⟩
abbrev S512x1024 : Shape := ⟨2, ![512, 1024]⟩
abbrev S256x1024 : Shape := ⟨2, ![256, 1024]⟩
abbrev S256x1 : Shape := ⟨2, ![256, 1]⟩
abbrev S256x512 : Shape := ⟨2, ![256, 512]⟩
abbrev S256 : Shape := ⟨1, ![256]⟩

abbrev nBuf : Space → Nat
  | .hbm => 16
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | .local _ .vmem, ⟨13, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_43 : BitVec 32 := 0#32
  let c0_i32_44 : BitVec 32 := 0#32
  ![arg0.toNat, 0, 0]
def k0_mult1 : BitVec 32 :=
  let c0_i32_54 : BitVec 32 := 0#32
  let c512_i32_55 : BitVec 32 := 512#32
  let v136 : BitVec 32 := Scalar.muli c0_i32_54 c512_i32_55
  v136
def k0_off2 (c0_i32_54 : BitVec 32) : Fin 2 → Nat :=
  let c512_i32_55 : BitVec 32 := 512#32
  let v136 : BitVec 32 := Scalar.muli c0_i32_54 c512_i32_55
  let v137 : BitVec 32 := v136
  let v138 : Index := Scalar.indexCast v137
  let c0_56 : Index := 0#32
  ![v138.toNat, 0]
def k0_mult2 : BitVec 32 :=
  let c1_i32_70 : BitVec 32 := 1#32
  let c512_i32_71 : BitVec 32 := 512#32
  let v168 : BitVec 32 := Scalar.muli c1_i32_70 c512_i32_71
  v168
def k0_mult3 : BitVec 32 :=
  let c2_i32_86 : BitVec 32 := 2#32
  let c512_i32_87 : BitVec 32 := 512#32
  let v200 : BitVec 32 := Scalar.muli c2_i32_86 c512_i32_87
  v200
def k0_mult4 : BitVec 32 :=
  let c3_i32_102 : BitVec 32 := 3#32
  let c512_i32_103 : BitVec 32 := 512#32
  let v232 : BitVec 32 := Scalar.muli c3_i32_102 c512_i32_103
  v232
def k0_mult5 : BitVec 32 :=
  let c0_i32_11 : BitVec 32 := 0#32
  let c512_i32 : BitVec 32 := 512#32
  let v19 : BitVec 32 := Scalar.muli c0_i32_11 c512_i32
  v19
def k0_off3 (c0_i32_11 : BitVec 32) : Fin 2 → Nat :=
  let c512_i32 : BitVec 32 := 512#32
  let v19 : BitVec 32 := Scalar.muli c0_i32_11 c512_i32
  let v20 : BitVec 32 := v19
  let v21 : Index := Scalar.indexCast v20
  let c0_12 : Index := 0#32
  ![v21.toNat, 0]
def k0_mult6 : BitVec 32 :=
  let c1_i32 : BitVec 32 := 1#32
  let c512_i32_18 : BitVec 32 := 512#32
  let v43 : BitVec 32 := Scalar.muli c1_i32 c512_i32_18
  v43
def k0_mult7 : BitVec 32 :=
  let c2_i32 : BitVec 32 := 2#32
  let c512_i32_25 : BitVec 32 := 512#32
  let v67 : BitVec 32 := Scalar.muli c2_i32 c512_i32_25
  v67
def k0_mult8 : BitVec 32 :=
  let c3_i32 : BitVec 32 := 3#32
  let c512_i32_32 : BitVec 32 := 512#32
  let v91 : BitVec 32 := Scalar.muli c3_i32 c512_i32_32
  v91
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S1024_S1x1024 : S1024.ShapeCasts S1x1024
  inb_S2_S1_0 : ∀ a, (![0] : Fin 1 → Nat) a + S1.size a ≤ S2.size a
  squeezes_S1_S_ : S1.Squeezes S_
  squeezes_S1x2048x1024_S2048x1024 : S1x2048x1024.Squeezes S2048x1024
  inb_S2_S1_1 : ∀ a, (![1] : Fin 1 → Nat) a + S1.size a ≤ S2.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x1024 : S512x1024.ShapeCasts S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  reduces_S256x512_S256 : S256x512.Reduces [1] S256
  shapeCasts_S256_S256x1 : S256.ShapeCasts S256x1
  broadcasts_S256x1_S256x512 : S256x1.Broadcasts S256x512
  broadcasts_S256x1_S256x1024 : S256x1.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S512x1024_S256x512_1_1_0_0_n_n_wf : DotDims.WF S256x1024 S512x1024 S256x512 [1] [1] [0] [0] [] []
  dot_S256x512_S512x1024_S256x1024_1_0_0_1_n_n_wf : DotDims.WF S256x512 S512x1024 S256x1024 [1] [0] [0] [1] [] []
  hcc0_scratch4 : 10 + S2.numel ≤ 12
  hrank0 : 0 < grid0.rank
  k0_off1_inb : ∀ i : grid0.Coords, ∀ (k0_h1 : k0_cond1 i = 1#1), ∀ a, (k0_off1 i) a + S1x2048x1024.size a ≤ S4x2048x1024.size a
  k0_mult1_dvd : ∀ i : grid0.Coords, ∀ (k0_h1 : k0_cond1 i = 1#1), 512 ∣ k0_mult1.toNat
  k0_off2_inb : ∀ i : grid0.Coords, ∀ (k0_h1 : k0_cond1 i = 1#1), ∀ (r : Fin 4), ∀ a, (k0_off2 (BitVec.ofNat 32 r.val)) a + S512x1024.size a ≤ S2048x1024.size a
  k0_off2_packedbf16 : ∀ i : grid0.Coords, ∀ (k0_h1 : k0_cond1 i = 1#1), ∀ (r : Fin 4), (Rect.unit (s := S2048x1024) (k0_off2 (BitVec.ofNat 32 r.val)) S512x1024.size (k0_off2_inb i k0_h1 r)).PackedRows (EltTy.packing .bf16)
  k0_mult2_dvd : ∀ i : grid0.Coords, ∀ (k0_h1 : k0_cond1 i = 1#1), 512 ∣ k0_mult2.toNat
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  k0_mult5_dvd : 512 ∣ k0_mult5.toNat
  k0_off3_inb : ∀ (r : Fin 4), ∀ a, (k0_off3 (BitVec.ofNat 32 r.val)) a + S512x1024.size a ≤ S2048x1024.size a
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_3 i = cc0_transform_3 i'
  hinb0_1 : ∀ (i : grid0.Coords) a, (cc0_transform_3 i a + 1) * S1024x1024.size a ≤ S1024x1024.size a
  hwx0_1 : ∀ i : grid0.Coords, EltTy.bits .bf16 = 32 ∨ (Rect.block (s := S1024x1024) S1024x1024.size (cc0_transform_3 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_4 i = cc0_transform_4 i'
  hinb0_2 : ∀ (i : grid0.Coords) a, (cc0_transform_4 i a + 1) * S1x1024.size a ≤ S1x1024.size a
  hwx0_2 : ∀ i : grid0.Coords, EltTy.bits .f32 = 32 ∨ (Rect.block (s := S1x1024) S1x1024.size (cc0_transform_4 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_5 i = cc0_transform_5 i'
  hinb0_3 : ∀ (i : grid0.Coords) a, (cc0_transform_5 i a + 1) * S1024x1024.size a ≤ S1024x1024.size a
  hwx0_3 : ∀ i : grid0.Coords, EltTy.bits .bf16 = 32 ∨ (Rect.block (s := S1024x1024) S1024x1024.size (cc0_transform_5 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_6 i = cc0_transform_6 i'
  hinb0_4 : ∀ (i : grid0.Coords) a, (cc0_transform_6 i a + 1) * S1x1024.size a ≤ S1x1024.size a
  hwx0_4 : ∀ i : grid0.Coords, EltTy.bits .f32 = 32 ∨ (Rect.block (s := S1x1024) S1x1024.size (cc0_transform_6 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_7 i = cc0_transform_7 i'
  hinb0_5 : ∀ (i : grid0.Coords) a, (cc0_transform_7 i a + 1) * S1024x1024.size a ≤ S1024x1024.size a
  hwx0_5 : ∀ i : grid0.Coords, EltTy.bits .bf16 = 32 ∨ (Rect.block (s := S1024x1024) S1024x1024.size (cc0_transform_7 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_8 i = cc0_transform_8 i'
  hinb0_6 : ∀ (i : grid0.Coords) a, (cc0_transform_8 i a + 1) * S1x1024.size a ≤ S1x1024.size a
  hwx0_6 : ∀ i : grid0.Coords, EltTy.bits .f32 = 32 ∨ (Rect.block (s := S1x1024) S1x1024.size (cc0_transform_8 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_9 i = cc0_transform_9 i'
  hinb0_7 : ∀ (i : grid0.Coords) a, (cc0_transform_9 i a + 1) * S1x256x1024.size a ≤ S4x2048x1024.size a
  hwx0_7 : ∀ i : grid0.Coords, EltTy.bits .f32 = 32 ∨ (Rect.block (s := S4x2048x1024) S1x256x1024.size (cc0_transform_9 i) (hinb0_7 i)).WholeWords (EltTy.packing .f32)

variable [Facts₀]

abbrev cc0_scratch4 : DmaSems sig S2 := SemArray.consecutive 10 S2 hcc0_scratch4
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_3 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_4 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_5 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_6 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_7 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_8 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256x1024.size cc0_transform_9 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.LibOnlineSoftmax.lean ====
/-
  Softmax-weighted pooling of the rows of a bag, and its computation in one pass with a running shift (the running
  maximum, sum and weighted sum of an online softmax). Independent of any program: it imports only the extended reals'
  operations.

  For logits z and features h over rows n, the pooled value is (Σ e^(z n − μ) · h n) / (Σ e^(z n − μ)); it does not
  depend on the shift μ, because changing μ to μ' multiplies numerator and denominator by the same e^(μ − μ') > 0.
  A one-pass computation keeps a shift μ and the two sums over the rows seen so far; taking in a further block of rows
  with a new shift μ' rescales the old sums by e^(μ − μ') and adds the block's terms. Two such partial states over
  disjoint row ranges are merged the same way. All of this is arithmetic of real numbers; the last part of the file
  carries sums, maxima and the exponential between the reals and the extended reals.
-/
import Idealize.ShloMosaic.PureOps.Ideal

noncomputable section

namespace Cert.Pool

open Idealize.ShloMosaic

/-! ## Partial sums over a range of rows, with a shift -/

/-- Σ over rows a ≤ n < b of e^(z n − μ). -/
def lsum (z : ℕ → ℝ) (a b : ℕ) (μ : ℝ) : ℝ := ∑ n ∈ Finset.Ico a b, Real.exp (z n - μ)

/-- Σ over rows a ≤ n < b of e^(z n − μ) · h n. -/
def wsum (z h : ℕ → ℝ) (a b : ℕ) (μ : ℝ) : ℝ := ∑ n ∈ Finset.Ico a b, Real.exp (z n - μ) * h n

theorem lsum_rescale (z : ℕ → ℝ) (a b : ℕ) (μ μ' : ℝ) : Real.exp (μ - μ') * lsum z a b μ = lsum z a b μ' := by
  unfold lsum
  rw [Finset.mul_sum]
  refine Finset.sum_congr rfl fun n _ => ?_
  rw [← Real.exp_add]
  congr 1
  ring

theorem wsum_rescale (z h : ℕ → ℝ) (a b : ℕ) (μ μ' : ℝ) : Real.exp (μ - μ') * wsum z h a b μ = wsum z h a b μ' := by
  unfold wsum
  rw [Finset.mul_sum]
  refine Finset.sum_congr rfl fun n _ => ?_
  rw [← mul_assoc, ← Real.exp_add]
  congr 2
  ring

theorem lsum_pos (z : ℕ → ℝ) {a b : ℕ} (hab : a < b) (μ : ℝ) : 0 < lsum z a b μ :=
  Finset.sum_pos (fun _ _ => Real.exp_pos _) ⟨a, Finset.mem_Ico.mpr ⟨le_refl a, hab⟩⟩

/-- A block of B rows b, b+1, …, b+B−1 as a sum over the block's own positions. -/
theorem block_sum (g : ℕ → ℝ) (b B : ℕ) : ∑ r : Fin B, g (b + r.val) = ∑ n ∈ Finset.Ico b (b + B), g n := by
  rw [Finset.sum_Ico_eq_sum_range, Nat.add_sub_cancel_left, Finset.sum_range]

/-- ONE STEP: the sums over rows a ≤ n < b at shift μ, rescaled to the shift μ', plus the block of B rows from b. -/
theorem lsum_step (z : ℕ → ℝ) {a b : ℕ} (hab : a ≤ b) (B : ℕ) (μ μ' : ℝ) :
    Real.exp (μ - μ') * lsum z a b μ + ∑ r : Fin B, Real.exp (z (b + r.val) - μ') = lsum z a (b + B) μ' := by
  rw [lsum_rescale, block_sum (fun n => Real.exp (z n - μ')) b B]
  exact Finset.sum_Ico_consecutive _ hab (Nat.le_add_right b B)

theorem wsum_step (z h : ℕ → ℝ) {a b : ℕ} (hab : a ≤ b) (B : ℕ) (μ μ' : ℝ) :
    Real.exp (μ - μ') * wsum z h a b μ + ∑ r : Fin B, Real.exp (z (b + r.val) - μ') * h (b + r.val)
      = wsum z h a (b + B) μ' := by
  rw [wsum_rescale, block_sum (fun n => Real.exp (z n - μ') * h n) b B]
  exact Finset.sum_Ico_consecutive _ hab (Nat.le_add_right b B)

/-- The first block: nothing before it. -/
theorem lsum_first (z : ℕ → ℝ) (b B : ℕ) (μ' : ℝ) :
    ∑ r : Fin B, Real.exp (z (b + r.val) - μ') = lsum z b (b + B) μ' :=
  block_sum (fun n => Real.exp (z n - μ')) b B

theorem wsum_first (z h : ℕ → ℝ) (b B : ℕ) (μ' : ℝ) :
    ∑ r : Fin B, Real.exp (z (b + r.val) - μ') * h (b + r.val) = wsum z h b (b + B) μ' :=
  block_sum (fun n => Real.exp (z n - μ') * h n) b B

/-- MERGING two partial states over adjacent ranges, each at its own shift, at a common shift μ. -/
theorem lsum_merge (z : ℕ → ℝ) {a b c : ℕ} (hab : a ≤ b) (hbc : b ≤ c) (μ₀ μ₁ μ : ℝ) :
    Real.exp (μ₀ - μ) * lsum z a b μ₀ + Real.exp (μ₁ - μ) * lsum z b c μ₁ = lsum z a c μ := by
  rw [lsum_rescale, lsum_rescale]
  exact Finset.sum_Ico_consecutive _ hab hbc

theorem wsum_merge (z h : ℕ → ℝ) {a b c : ℕ} (hab : a ≤ b) (hbc : b ≤ c) (μ₀ μ₁ μ : ℝ) :
    Real.exp (μ₀ - μ) * wsum z h a b μ₀ + Real.exp (μ₁ - μ) * wsum z h b c μ₁ = wsum z h a c μ := by
  rw [wsum_rescale, wsum_rescale]
  exact Finset.sum_Ico_consecutive _ hab hbc

/-- The pooled value does not depend on the shift. -/
theorem pool_shift (z h : ℕ → ℝ) (a b : ℕ) (μ μ' : ℝ) :
    wsum z h a b μ / lsum z a b μ = wsum z h a b μ' / lsum z a b μ' := by
  rw [← wsum_rescale z h a b μ μ', ← lsum_rescale z a b μ μ', mul_div_mul_left _ _ (Real.exp_pos _).ne']

/-- Normalizing each weight first and summing afterwards gives the same pooled value. -/
theorem pool_normalized (z h : ℕ → ℝ) (a b : ℕ) (μ : ℝ) :
    ∑ n ∈ Finset.Ico a b, Real.exp (z n - μ) / lsum z a b μ * h n = wsum z h a b μ / lsum z a b μ := by
  unfold wsum
  rw [Finset.sum_div]
  refine Finset.sum_congr rfl fun n _ => ?_
  ring

/-! ## Between the reals and the extended reals -/

theorem coe_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The running maximum, started from −∞, of finitely many real numbers — at least one — is a real number. -/
theorem exists_real_fold_max {ι : Type} (s : Finset ι) (hs : s.Nonempty) (f : ι → ℝ) :
    ∃ r : ℝ, s.fold max (⊥ : EReal) (fun k => (f k : EReal)) = (r : EReal) := by
  classical
  have key : ∀ t : Finset ι, (t = ∅ ∧ t.fold max (⊥ : EReal) (fun k => (f k : EReal)) = ⊥)
      ∨ ∃ r : ℝ, t.fold max (⊥ : EReal) (fun k => (f k : EReal)) = (r : EReal) := by
    intro t
    induction t using Finset.induction_on with
    | empty => exact Or.inl ⟨rfl, Finset.fold_empty⟩
    | insert a t ha ih =>
      refine Or.inr ?_
      rw [Finset.fold_insert ha]
      rcases ih with ⟨_, h⟩ | ⟨r, h⟩
      · exact ⟨f a, by rw [h, max_bot_right]⟩
      · exact ⟨max (f a) r, by rw [h, coe_max]⟩
  rcases key s with ⟨h, _⟩ | h
  · exact absurd h hs.ne_empty
  · exact h

/-- A quotient of real numbers by a nonzero real, taken on the extended reals, is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  ring

end Cert.Pool

end
-- ==== Proof.AttentionSpec.lean ====
/-
  Single-head scaled dot-product attention over dense query, key and value projections, as a function of real
  arrays: the function both programs are compared with.

  For a batch b the three projections are x·W + bias, row by row. The score of query row s against key row n is their
  inner product over the model axis times 1/32 (= 1/√1024). The result at (b, s, e) is the softmax-weighted mean over
  the key rows n of the projected values at (n, e): (Σ_n e^(z n) · h n) / (Σ_n e^(z n)) with z the scores of row s and
  h the value column e. It is stated without a shift; subtracting any real number from every score multiplies numerator
  and denominator by the same positive factor, so a computation that subtracts the row maximum, or a running maximum,
  gives the same quotient.

  The second half states the one-pass computation of that quotient on the extended reals: a state (running maximum,
  running sum, running weighted sum), started at (−∞, 0, 0), that takes in one block of 512 scores and values at a time.
-/
import Idealize.ShloMosaic.Lib.ValueIdx
import Idealize.ShloMosaic.PureOps.Ideal
import proofs.«118870_j18597208392097_2_alg».proof.Proof.LibOnlineSoftmax

noncomputable section

namespace Cert.AttentionSpec

open Idealize.ShloMosaic Idealize.ShloMosaic.ValueIdx

/-- Every entry of an array of extended reals is a real number. -/
def IsReal {ι : Type} (x : ι → EReal) : Prop := ∀ i, x i = ((x i).toReal : EReal)

/-- The activations [4, 2048, 1024], a weight matrix [1024, 1024], a bias [1024]. -/
abbrev Act : Shape := ⟨3, ![4, 2048, 1024]⟩
abbrev Wt : Shape := ⟨2, ![1024, 1024]⟩
abbrev Bias : Shape := ⟨1, ![1024]⟩

/-- Row n of a batch, for a natural number n (below 2048 wherever it is used). -/
def row (n : ℕ) : Fin 2048 := ⟨n % 2048, Nat.mod_lt n (by decide)⟩

theorem row_val {n : ℕ} (h : n < 2048) : (row n).val = n := Nat.mod_eq_of_lt h

theorem row_eq {n : ℕ} (h : n < 2048) : row n = ⟨n, h⟩ := Fin.ext (row_val h)

/-- The dense projection x·W + bias of batch b, row s, at column e. -/
def proj (x : Act.Idx → EReal) (W : Wt.Idx → EReal) (bias : Bias.Idx → EReal) (b : Fin 4) (s : Fin 2048) (e : Fin 1024) : ℝ :=
  (∑ d : Fin 1024, (x (ix3 b s d)).toReal * (W (ix2 d e)).toReal) + (bias (ix1 e)).toReal

/-- The scaled score of query row s against key row n: the inner product of the two projected rows, times 1/32. -/
def score (qp kp : Fin 2048 → Fin 1024 → ℝ) (s : Fin 2048) (n : ℕ) : ℝ :=
  (∑ e : Fin 1024, qp s e * kp (row n) e) * (1 / 32)

/-- Attention at (b, s, e): the softmax-weighted mean over the 2048 key rows of the projected values' column e. -/
def attn (q k v : Act.Idx → EReal) (Wq : Wt.Idx → EReal) (bq : Bias.Idx → EReal) (Wk : Wt.Idx → EReal) (bk : Bias.Idx → EReal)
    (Wv : Wt.Idx → EReal) (bv : Bias.Idx → EReal) (b : Fin 4) (s : Fin 2048) (e : Fin 1024) : ℝ :=
  Cert.Pool.wsum (score (proj q Wq bq b) (proj k Wk bk b) s) (fun n => proj v Wv bv b (row n) e) 0 2048 0
    / Cert.Pool.lsum (score (proj q Wq bq b) (proj k Wk bk b) s) 0 2048 0

/-- The whole result array. -/
def G (q k v : Act.Idx → EReal) (Wq : Wt.Idx → EReal) (bq : Bias.Idx → EReal) (Wk : Wt.Idx → EReal) (bk : Bias.Idx → EReal)
    (Wv : Wt.Idx → EReal) (bv : Bias.Idx → EReal) : Act.Idx → EReal :=
  fun i => ((attn q k v Wq bq Wk bk Wv bv (i 0) (i 1) (i 2) : ℝ) : EReal)

theorem G_apply (q k v : Act.Idx → EReal) (Wq : Wt.Idx → EReal) (bq : Bias.Idx → EReal) (Wk : Wt.Idx → EReal) (bk : Bias.Idx → EReal)
    (Wv : Wt.Idx → EReal) (bv : Bias.Idx → EReal) (b : Fin 4) (s : Fin 2048) (e : Fin 1024) :
    G q k v Wq bq Wk bk Wv bv (ix3 b s e) = ((attn q k v Wq bq Wk bk Wv bv b s e : ℝ) : EReal) := rfl

/-! ## The one-pass computation on the extended reals -/

/-- The state of a one-pass softmax pooling: running maximum, running sum of weights, running weighted sum. -/
structure St where
  m : EReal
  l : EReal
  acc : EReal

/-- Nothing seen yet. -/
def init : St := ⟨⊥, 0, 0⟩

/-- Take in a block of 512 scores s and values v: the new maximum m' is the old one against the block's; the old sums
    are rescaled by e^(m − m') and the block's terms e^(s j − m') (times v j) are added. -/
def step (st : St) (s v : Fin 512 → EReal) : St :=
  let m' := max st.m ((Finset.univ : Finset (Fin 512)).fold max (⊥ : EReal) s)
  ⟨m', Ideal.exp (st.m - m') * st.l + ∑ j : Fin 512, Ideal.exp (s j - m'),
    Ideal.exp (st.m - m') * st.acc + ∑ j : Fin 512, Ideal.exp (s j - m') * v j⟩

/-- Block k (k = 0, 1, 2, 3) of a row of real scores or values indexed by the key row, on the extended reals. -/
def blk (z : ℕ → ℝ) (k : ℕ) : Fin 512 → EReal := fun j => ((z (512 * k + j.val) : ℝ) : EReal)

/-- The state after the four blocks of a row. -/
def run4 (z h : ℕ → ℝ) : St :=
  step (step (step (step init (blk z 0) (blk h 0)) (blk z 1) (blk h 1)) (blk z 2) (blk h 2)) (blk z 3) (blk h 3)

end Cert.AttentionSpec

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibRowRowDot.lean ====
/-
  A matrix product contracted on the LAST axis of both operands: [M, K] × [N, K] → [M, N] (rows against rows, the
  product with the second operand transposed), accumulated into zero. Over the extended reals its entry (p, c) is
  the sum over k of l(p, k) · r(c, k).

  The dimension record is any one whose operand indices have the four evident coordinates (a concrete record
  supplies them by computation): the left index at output (p, c) and contraction index k is (p, k), the right one
  is (c, k).
-/
import Idealize.ShloMosaic.Lib.ValueIdx
import Idealize.ShloMosaic.PureOps.Ideal.Laws

noncomputable section

namespace Cert.Lib

open Idealize.ShloMosaic Idealize.ShloMosaic.ValueIdx

/-- A `tpu.matmul` of an `[M, K]` and an `[N, K]` operand contracted on their last axes, into the zero accumulator,
    read at `(p, c)` over the extended reals: `∑ k, l (p, k) * r (c, k)`. -/
theorem matmul_zero_rows_rows {M N K : ℕ} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (j 1).val)
    (hr1 : ∀ (j : (⟨2, ![M, N]⟩ : Shape).Idx) (q : d.contr.Idx), (d.rhsIdx j q 1).val = (q ⟨0, by omega⟩).val)
    (prec : Option ContractPrecision) (l : FVec Ideal ⟨2, ![M, K]⟩ φ₁) (r : FVec Ideal ⟨2, ![N, K]⟩ φ₂)
    (p : Fin M) (c : Fin N) :
    FloatOps.matmul d prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 c k := funext fun a => Fin.ext (by
    match a with
    | ⟨0, _⟩ => exact hr0 _ _
    | ⟨1, _⟩ => exact (hr1 _ _).trans hk)
  rw [el, er]

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.AttentionBlock.lean ====
/-
  One query tile of the kernel, on whole vectors, and what it holds entry by entry.

  A query tile is 256 rows. Its projected, scaled queries qp (256 × 1024) meet the projected keys and values one tile of
  512 key rows at a time. One step takes the running state (row maxima m, row sums l, weighted sums acc) and a key tile
  kt and value tile vt (512 × 1024 each): the scores are s = qp · ktᵀ (256 × 512); the new maxima m' = max m (row maxima
  of s); the old sums are rescaled by e^(m − m'); the weights are P = e^(s − m'); l' = e^(m − m') · l + row sums of P and
  acc' = e^(m − m') · acc + P · vt. After the last tile the block is acc / l. Entry by entry — row p, column e — a step
  is the scalar step of the specification on the scores of row p against the tile's 512 key rows and the tile's value
  column e.
-/
import proofs.«118870_j18597208392097_2_alg».proof.KernelIdeal
import proofs.«118870_j18597208392097_2_alg».proof.Proof.AttentionSpec
import proofs.«118870_j18597208392097_2_alg».proof.Proof.LibPlainDot
import proofs.«118870_j18597208392097_2_alg».proof.Proof.LibRowRowDot
import proofs.«118870_j18597208392097_2_alg».proof.Proof.LibAxisMax
import proofs.«118870_j18597208392097_2_alg».proof.Proof.LibAxisSums
import proofs.«118870_j18597208392097_2_alg».proof.Proof.LibColumnCast
import proofs.«118870_j18597208392097_2_alg».proof.Proof.LibColumnBroadcast
import Idealize.ShloMosaic.Lib.ValueLayout
import Idealize.ShloMosaic.Lib.Pipeline.Value
import Idealize.ShloMosaic.PureOps.Ideal.Laws

noncomputable section

namespace Cert.KernelIdeal.Block

open Cert.KernelIdeal Idealize.ShloMosaic Idealize.ShloMosaic.ValueIdx Cert.AttentionSpec
open Facts₀ Facts

section Generic

variable {F : FTy → Type} [FloatOps F] [Facts]

/-- The running state of a query tile: row maxima, row sums, weighted sums. -/
structure VSt (F : FTy → Type) where
  m : FVec F S256x1 .f32
  l : FVec F S256x1 .f32
  acc : FVec F S256x1024 .f32

/-- Before the first key tile: maxima −∞, sums 0. -/
def vinit : VSt F :=
  ⟨broadcast S256x1 (Scalar.ofBits .f32 0xFF800000#32), broadcast S256x1 (Scalar.ofBits .f32 0x00000000#32),
    broadcast S256x1024 (Scalar.ofBits .f32 0x00000000#32)⟩

/-- The scores of the tile's query rows against a tile of key rows: qp · ktᵀ. -/
def scores (qp : FVec F S256x1024 .bf16) (kt : Vec F S512x1024 .bf16) : FVec F S256x512 .f32 :=
  matmul dot_S256x1024_S512x1024_S256x512_1_1_0_0_n_n none qp kt (constant S256x512 .f32 0x00000000#32)

/-- The running maxima against the row maxima of a block of scores. -/
def newMax (m : FVec F S256x1 .f32) (s : FVec F S256x512 .f32) : FVec F S256x1 .f32 :=
  maximumf m (shapeCast S256x1 (multiReduction .maximumf [1] S256 s 0xFF800000#32 reduces_S256x512_S256 (.inl rfl) rfl) shapeCasts_S256_S256x1)

/-- The factor e^(m − m') that carries sums taken at the old maxima to the new ones. -/
def rescale (m m' : FVec F S256x1 .f32) : FVec F S256x1 .f32 := exp (subf m m')

/-- The block's weights e^(s − m'). -/
def weights (s : FVec F S256x512 .f32) (m' : FVec F S256x1 .f32) : FVec F S256x512 .f32 :=
  exp (subf s (broadcastTo S256x512 m' broadcasts_S256x1_S256x512))

/-- The rescaled row sums plus the block's. -/
def newSum (a l : FVec F S256x1 .f32) (P : FVec F S256x512 .f32) : FVec F S256x1 .f32 :=
  addf (mulf a l) (shapeCast S256x1 (multiReduction .add [1] S256 P 0x00000000#32 reduces_S256x512_S256 (.inl rfl) rfl) shapeCasts_S256_S256x1)

/-- The rescaled weighted sums plus the block's: P · vt. -/
def newAcc (a : FVec F S256x1 .f32) (acc : FVec F S256x1024 .f32) (P : FVec F S256x512 .f32) (vt : Vec F S512x1024 .bf16) :
    FVec F S256x1024 .f32 :=
  addf (mulf (broadcastTo S256x1024 a broadcasts_S256x1_S256x1024) acc)
    (matmul dot_S256x512_S512x1024_S256x1024_1_0_0_1_n_n none (truncf .bf16 P bitsLt_bf16_f32) vt (constant S256x1024 .f32 0x00000000#32))

/-- One step: take in a key tile and a value tile. -/
def vstep (qp : FVec F S256x1024 .bf16) (st : VSt F) (kt vt : Vec F S512x1024 .bf16) : VSt F :=
  ⟨newMax st.m (scores qp kt),
    newSum (rescale st.m (newMax st.m (scores qp kt))) st.l (weights (scores qp kt) (newMax st.m (scores qp kt))),
    newAcc (rescale st.m (newMax st.m (scores qp kt))) st.acc (weights (scores qp kt) (newMax st.m (scores qp kt))) vt⟩

/-- The block a state leaves: acc / l, as a 1 × 256 × 1024 array. -/
def vout (st : VSt F) : FVec F S1x256x1024 .f32 :=
  shapeCast S1x256x1024 (divf st.acc (broadcastTo S256x1024 st.l broadcasts_S256x1_S256x1024)) shapeCasts_S256x1024_S1x256x1024

/-- The dense projection of a tile of 512 rows: x · W + bias. -/
def tileProj (x : Vec F S512x1024 .f32) (W : Vec F S1024x1024 .bf16) (bias : Vec F S1x1024 .f32) : FVec F S512x1024 .bf16 :=
  shapeCast S512x1024
    (truncf .bf16
      (addf (matmul dot_S512x1024_S1024x1024_S512x1024_1_0_0_1_n_n none (truncf .bf16 x bitsLt_bf16_f32)
          (shapeCast S1024x1024 W shapeCasts_S1024x1024_S1024x1024) (constant S512x1024 .f32 0x00000000#32))
        (broadcastTo S512x1024 (shapeCast S1x1024 bias shapeCasts_S1x1024_S1x1024) broadcasts_S1x1024_S512x1024))
      bitsLt_bf16_f32)
    shapeCasts_S512x1024_S512x1024

/-- The projected queries of a tile, scaled by 2⁻⁵: (x · W + bias) · 2⁻⁵ — the softmax scale 1/√1024 folded into the query. -/
def qProj (x : Vec F S1x256x1024 .f32) (W : Vec F S1024x1024 .bf16) (bias : Vec F S1x1024 .f32) : FVec F S256x1024 .bf16 :=
  truncf .bf16
    (mulf
      (addf (matmul dot_S256x1024_S1024x1024_S256x1024_1_0_0_1_n_n none
          (truncf .bf16 (shapeCast S256x1024 x shapeCasts_S1x256x1024_S256x1024) bitsLt_bf16_f32)
          (shapeCast S1024x1024 W shapeCasts_S1024x1024_S1024x1024) (constant S256x1024 .f32 0x00000000#32))
        (broadcastTo S256x1024 (shapeCast S1x1024 bias shapeCasts_S1x1024_S1x1024) broadcasts_S1x1024_S256x1024))
      (broadcast S256x1024 (Scalar.ofBits .f32 0x3D000000#32)))
    bitsLt_bf16_f32

end Generic

/-! ## Entry by entry, on the extended reals -/

section AtIdeal

variable [Facts]

theorem ofBits_neg_inf : Ideal.ofBits .f32 0xFF800000#32 = (⊥ : EReal) := by
  simp [Ideal.ofBits, Ideal.ieee]

/-- A state read at row p, column e. -/
def rd (st : VSt Ideal) (p : Fin 256) (e : Fin 1024) : St :=
  ⟨st.m (ix2 p (0 : Fin 1)), st.l (ix2 p (0 : Fin 1)), st.acc (ix2 p e)⟩

theorem rd_vinit (p : Fin 256) (e : Fin 1024) : rd (vinit (F := Ideal)) p e = init := by
  unfold rd vinit init
  show (⟨Ideal.ofBits .f32 0xFF800000#32, Ideal.ofBits .f32 0x00000000#32, Ideal.ofBits .f32 0x00000000#32⟩ : St) = _
  rw [ofBits_neg_inf, Ideal.ofBits_zero_f32]

theorem scores_apply (qp : FVec Ideal S256x1024 .bf16) (kt : Vec Ideal S512x1024 .bf16) (p : Fin 256) (j : Fin 512) :
    scores qp kt (ix2 p j) = ∑ d : Fin 1024, qp (ix2 p d) * kt (ix2 j d) := by
  unfold scores
  refine Cert.Lib.matmul_zero_rows_rows dot_S256x1024_S512x1024_S256x512_1_1_0_0_n_n rfl rfl ?_ ?_ ?_ ?_ none qp kt p j
  · intro i q
    unfold DotDims.lhsIdx
    rw [dif_neg (show ¬ (0 : Fin S256x1024.rank) ∈ dot_S256x1024_S512x1024_S256x512_1_1_0_0_n_n.lhsBatch from (List.not_mem_nil : ¬ (0 : Fin 2) ∈ ([] : List (Fin 2)))),
      dif_pos (show (0 : Fin S256x1024.rank) ∈ dot_S256x1024_S512x1024_S256x512_1_1_0_0_n_n.lhsNonContracting from (List.mem_singleton.mpr rfl : (0 : Fin 2) ∈ ([0] : List (Fin 2))))]
    rfl
  · intro i q
    exact dot_S256x1024_S512x1024_S256x512_1_1_0_0_n_n.lhsIdx_val_of_single rfl i q
  · intro i q
    unfold DotDims.rhsIdx
    rw [dif_neg (show ¬ (0 : Fin S512x1024.rank) ∈ dot_S256x1024_S512x1024_S256x512_1_1_0_0_n_n.rhsBatch from (List.not_mem_nil : ¬ (0 : Fin 2) ∈ ([] : List (Fin 2)))),
      dif_pos (show (0 : Fin S512x1024.rank) ∈ dot_S256x1024_S512x1024_S256x512_1_1_0_0_n_n.rhsNonContracting from (List.mem_singleton.mpr rfl : (0 : Fin 2) ∈ ([0] : List (Fin 2))))]
    rfl
  · intro i q
    exact dot_S256x1024_S512x1024_S256x512_1_1_0_0_n_n.rhsIdx_val_of_single rfl i q

theorem newMax_apply (m : FVec Ideal S256x1 .f32) (s : FVec Ideal S256x512 .f32) (p : Fin 256) :
    newMax m s (ix2 p (0 : Fin 1))
      = max (m (ix2 p (0 : Fin 1))) ((Finset.univ : Finset (Fin 512)).fold max (⊥ : EReal) (fun j => s (ix2 p j))) := by
  unfold newMax
  show max (m (ix2 p (0 : Fin 1))) _ = _
  refine congrArg (max (m (ix2 p (0 : Fin 1)))) ?_
  refine (Cert.Lib.shapeCast_a_a1_apply _ shapeCasts_S256_S256x1 p (0 : Fin 1)).trans ?_
  refine (Cert.Lib.rowMax_apply s 0xFF800000#32 reduces_S256x512_S256 (.inl rfl) rfl p).trans ?_
  rw [ofBits_neg_inf]

theorem rescale_apply (m m' : FVec Ideal S256x1 .f32) (p : Fin 256) :
    rescale m m' (ix2 p (0 : Fin 1)) = Ideal.exp (m (ix2 p (0 : Fin 1)) - m' (ix2 p (0 : Fin 1))) := rfl

theorem weights_apply (s : FVec Ideal S256x512 .f32) (m' : FVec Ideal S256x1 .f32) (p : Fin 256) (j : Fin 512) :
    weights s m' (ix2 p j) = Ideal.exp (s (ix2 p j) - m' (ix2 p (0 : Fin 1))) := by
  unfold weights
  show Ideal.exp (s (ix2 p j) - broadcastTo S256x512 m' broadcasts_S256x1_S256x512 (ix2 p j)) = _
  rw [Cert.Lib.broadcastTo_a1_ab_apply m' broadcasts_S256x1_S256x512 p j]

theorem newSum_apply (a l : FVec Ideal S256x1 .f32) (P : FVec Ideal S256x512 .f32) (p : Fin 256) :
    newSum a l P (ix2 p (0 : Fin 1)) = a (ix2 p (0 : Fin 1)) * l (ix2 p (0 : Fin 1)) + ∑ j : Fin 512, P (ix2 p j) := by
  unfold newSum
  show a (ix2 p (0 : Fin 1)) * l (ix2 p (0 : Fin 1)) + _ = _
  refine congrArg (a (ix2 p (0 : Fin 1)) * l (ix2 p (0 : Fin 1)) + ·) ?_
  refine (Cert.Lib.shapeCast_a_a1_apply _ shapeCasts_S256_S256x1 p (0 : Fin 1)).trans ?_
  exact Cert.Lib.rowSum_apply P 0x00000000#32 reduces_S256x512_S256 (.inl rfl) rfl p

theorem newAcc_apply (a : FVec Ideal S256x1 .f32) (acc : FVec Ideal S256x1024 .f32) (P : FVec Ideal S256x512 .f32)
    (vt : Vec Ideal S512x1024 .bf16) (p : Fin 256) (e : Fin 1024) :
    newAcc a acc P vt (ix2 p e) = a (ix2 p (0 : Fin 1)) * acc (ix2 p e) + ∑ j : Fin 512, P (ix2 p j) * vt (ix2 j e) := by
  unfold newAcc
  show broadcastTo S256x1024 a broadcasts_S256x1_S256x1024 (ix2 p e) * acc (ix2 p e) + _ = _
  rw [Cert.Lib.broadcastTo_a1_ab_apply a broadcasts_S256x1_S256x1024 p e]
  refine congrArg (a (ix2 p (0 : Fin 1)) * acc (ix2 p e) + ·) ?_
  have hd : dot_S256x512_S512x1024_S256x1024_1_0_0_1_n_n
      = Cert.Lib.plainDot 256 512 1024 dot_S256x512_S512x1024_S256x1024_1_0_0_1_n_n_wf := rfl
  rw [hd]
  exact Cert.Lib.matmul_zero_apply dot_S256x512_S512x1024_S256x1024_1_0_0_1_n_n_wf none (truncf .bf16 P bitsLt_bf16_f32) vt p e

/-- ONE STEP AT AN ENTRY is the scalar step on row p's scores against the tile and the tile's value column e. -/
theorem rd_vstep (qp : FVec Ideal S256x1024 .bf16) (st : VSt Ideal) (kt vt : Vec Ideal S512x1024 .bf16) (p : Fin 256) (e : Fin 1024) :
    rd (vstep qp st kt vt) p e
      = step (rd st p e) (fun j => ∑ d : Fin 1024, qp (ix2 p d) * kt (ix2 j d)) (fun j => vt (ix2 j e)) := by
  unfold rd vstep step
  simp only [newMax_apply, newSum_apply, newAcc_apply, rescale_apply, weights_apply, scores_apply]

theorem vout_apply (st : VSt Ideal) (p : Fin 256) (e : Fin 1024) :
    vout st (ix3 (0 : Fin 1) p e) = Ideal.div (rd st p e).acc (rd st p e).l := by
  unfold vout rd
  refine (shapeCast_ab_1ab_apply _ shapeCasts_S256x1024_S1x256x1024 (0 : Fin 1) p e).trans ?_
  show Ideal.div (st.acc (ix2 p e)) (broadcastTo S256x1024 st.l broadcasts_S256x1_S256x1024 (ix2 p e)) = _
  rw [Cert.Lib.broadcastTo_a1_ab_apply st.l broadcasts_S256x1_S256x1024 p e]

theorem tileProj_apply (x : Vec Ideal S512x1024 .f32) (W : Vec Ideal S1024x1024 .bf16) (bias : Vec Ideal S1x1024 .f32)
    (j : Fin 512) (d : Fin 1024) :
    tileProj x W bias (ix2 j d) = (∑ c : Fin 1024, x (ix2 j c) * W (ix2 c d)) + bias (ix2 (0 : Fin 1) d) := by
  unfold tileProj
  rw [shapeCast_self, shapeCast_self, shapeCast_self]
  show FloatOps.matmul dot_S512x1024_S1024x1024_S512x1024_1_0_0_1_n_n none (truncf .bf16 x bitsLt_bf16_f32) W
        (constant (F := Ideal) S512x1024 .f32 0x00000000#32) (ix2 j d)
      + broadcastTo S512x1024 bias broadcasts_S1x1024_S512x1024 (ix2 j d) = _
  rw [broadcastTo_1b_ab_apply bias broadcasts_S1x1024_S512x1024 j d]
  refine congrArg (· + bias (ix2 (0 : Fin 1) d)) ?_
  have hd : dot_S512x1024_S1024x1024_S512x1024_1_0_0_1_n_n
      = Cert.Lib.plainDot 512 1024 1024 dot_S512x1024_S1024x1024_S512x1024_1_0_0_1_n_n_wf := rfl
  rw [hd]
  exact Cert.Lib.matmul_zero_apply dot_S512x1024_S1024x1024_S512x1024_1_0_0_1_n_n_wf none (truncf .bf16 x bitsLt_bf16_f32) W j d

theorem qProj_apply (x : Vec Ideal S1x256x1024 .f32) (W : Vec Ideal S1024x1024 .bf16) (bias : Vec Ideal S1x1024 .f32)
    (p : Fin 256) (d : Fin 1024) :
    qProj x W bias (ix2 p d)
      = ((∑ c : Fin 1024, x (ix3 (0 : Fin 1) p c) * W (ix2 c d)) + bias (ix2 (0 : Fin 1) d)) * Ideal.ofBits .f32 0x3D000000#32 := by
  unfold qProj
  rw [shapeCast_self, shapeCast_self]
  show (FloatOps.matmul dot_S256x1024_S1024x1024_S256x1024_1_0_0_1_n_n none
          (truncf .bf16 (shapeCast S256x1024 x shapeCasts_S1x256x1024_S256x1024) bitsLt_bf16_f32) W
          (constant (F := Ideal) S256x1024 .f32 0x00000000#32) (ix2 p d)
        + broadcastTo S256x1024 bias broadcasts_S1x1024_S256x1024 (ix2 p d)) * Ideal.ofBits .f32 0x3D000000#32 = _
  rw [broadcastTo_1b_ab_apply bias broadcasts_S1x1024_S256x1024 p d]
  refine congrArg (fun t => (t + bias (ix2 (0 : Fin 1) d)) * Ideal.ofBits .f32 0x3D000000#32) ?_
  have hd : dot_S256x1024_S1024x1024_S256x1024_1_0_0_1_n_n
      = Cert.Lib.plainDot 256 1024 1024 dot_S256x1024_S1024x1024_S256x1024_1_0_0_1_n_n_wf := rfl
  rw [hd]
  refine (Cert.Lib.matmul_zero_apply dot_S256x1024_S1024x1024_S256x1024_1_0_0_1_n_n_wf none
    (truncf .bf16 (shapeCast S256x1024 x shapeCasts_S1x256x1024_S256x1024) bitsLt_bf16_f32) W p d).trans ?_
  refine Finset.sum_congr rfl fun c _ => ?_
  show shapeCast S256x1024 x shapeCasts_S1x256x1024_S256x1024 (ix2 p c) * W (ix2 c d) = _
  rw [shapeCast_1ab_ab_apply x shapeCasts_S1x256x1024_S256x1024 p c]

end AtIdeal

end Cert.KernelIdeal.Block

end
-- ==== Proof.AttentionPayload.lean ====
/-
  The kernel body's arithmetic, as the printed payloads state it, is the vector-level computation of
  AttentionBlock: the stored block is the four steps over the four key and value tiles followed by acc / l, the
  projected query tile is qProj, and each tile written into the key and value scratch is tileProj of a raw tile.
-/
import proofs.«118870_j18597208392097_2_alg».proof.Proof.Gen.KernelIdeal.Skeleton
import proofs.«118870_j18597208392097_2_alg».proof.Proof.AttentionBlock

noncomputable section

namespace Cert.KernelIdeal.Block

open Cert.KernelIdeal Cert.KernelIdeal.Gen Idealize.ShloMosaic

variable {F : FTy → Type} [FloatOps F]

theorem pay12_eq (x0 : Vec F S1x256x1024 .f32) (x1 : Vec F S1024x1024 .bf16) (x2 : Vec F S1x1024 .f32) :
    k0_pay12 x0 x1 x2 = qProj x0 x1 x2 := rfl

theorem pay2_eq (a : Vec F S512x1024 .f32) (W : Vec F S1024x1024 .bf16) (b : Vec F S1x1024 .f32) : k0_pay2 a W b = tileProj a W b := rfl
theorem pay3_eq (a : Vec F S512x1024 .f32) (W : Vec F S1024x1024 .bf16) (b : Vec F S1x1024 .f32) : k0_pay3 a W b = tileProj a W b := rfl
theorem pay4_eq (a : Vec F S512x1024 .f32) (W : Vec F S1024x1024 .bf16) (b : Vec F S1x1024 .f32) : k0_pay4 a W b = tileProj a W b := rfl
theorem pay7_eq (a : Vec F S512x1024 .f32) (W : Vec F S1024x1024 .bf16) (b : Vec F S1x1024 .f32) : k0_pay7 a W b = tileProj a W b := rfl
theorem pay10_eq (a : Vec F S512x1024 .f32) (W : Vec F S1024x1024 .bf16) (b : Vec F S1x1024 .f32) : k0_pay10 a W b = tileProj a W b := rfl
theorem pay11_eq (a : Vec F S512x1024 .f32) (W : Vec F S1024x1024 .bf16) (b : Vec F S1x1024 .f32) : k0_pay11 a W b = tileProj a W b := rfl
theorem pay6_eq (a : Vec F S512x1024 .f32) (W : Vec F S1024x1024 .bf16) (b : Vec F S1x1024 .f32) : k0_pay6 (k0_pay5 a W) b = tileProj a W b := rfl
theorem pay9_eq (a : Vec F S512x1024 .f32) (W : Vec F S1024x1024 .bf16) (b : Vec F S1x1024 .f32) : k0_pay9 (k0_pay8 a W b) = tileProj a W b := rfl

/-- The stored block: four steps over the key tiles t0 … t3 and value tiles u0 … u3, then acc / l. -/
theorem pay1_eq (x0 : Vec F S1x256x1024 .f32) (x1 : Vec F S1024x1024 .bf16) (x2 : Vec F S1x1024 .f32)
    (t0 t1 t2 t3 u0 u1 u2 u3 : Vec F S512x1024 .bf16) :
    k0_pay1 (k0_pay12 x0 x1 x2)
        (k0_pay25 (k0_pay12 x0 x1 x2) (k0_pay16 x0 x1 x2 t0) (k0_pay19 x0 x1 x2 t0) (k0_pay20 x0 x1 x2 t0) t1)
        (k0_pay26 (k0_pay12 x0 x1 x2) k0_pay14 u0 (k0_pay16 x0 x1 x2 t0) (k0_pay17 x0 x1 x2 t0) (k0_pay18 x0 x1 x2 t0) t1 u1)
        u2
        (k0_pay28 (k0_pay12 x0 x1 x2) (k0_pay16 x0 x1 x2 t0) t1 t2)
        (k0_pay29 (k0_pay12 x0 x1 x2) (k0_pay16 x0 x1 x2 t0) t1 t2)
        (k0_pay30 (k0_pay12 x0 x1 x2) (k0_pay16 x0 x1 x2 t0) t1 t2)
        t3 u3
      = vout (vstep (qProj x0 x1 x2) (vstep (qProj x0 x1 x2) (vstep (qProj x0 x1 x2) (vstep (qProj x0 x1 x2) vinit t0 u0) t1 u1) t2 u2) t3 u3) := rfl

end Cert.KernelIdeal.Block

end
-- ==== Proof.AttentionPieces.lean ====
/-
  What a grid point leaves in the output block and in the two carried scratch arrays, in terms of the vector-level
  computation: the output block is the four online-softmax steps of the point's query tile over the four 512-row tiles
  of the key scratch and of the value scratch as the point leaves them, then acc / l. At a batch's first query tile the
  point first fills the two scratch arrays, tile by tile, with the dense projections of the batch's raw keys and values
  (copied whole from the argument arrays), and reads them back; at the other query tiles it reads what the point before
  left and leaves it unchanged.
-/
import proofs.«118870_j18597208392097_2_alg».proof.Proof.Gen.KernelIdeal.Frame
import proofs.«118870_j18597208392097_2_alg».proof.Proof.AttentionPayload

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Block

variable {F : FTy → Type} [FloatOps F]

/-- Tile k (rows 512·k … 512·k + 511) of a 2048 × 1024 array, as the body loads it. -/
abbrev tileAt (X : S2048x1024.Idx → Elt F .bf16) (o : ℕ) (h : ∀ a, (![o, 0] : Fin 2 → ℕ) a + S512x1024.size a ≤ S2048x1024.size a) :
    S512x1024.Idx → Elt F .bf16 :=
  View.ld X (Rect.unit (s := S2048x1024) ![o, 0] S512x1024.size h)

theorem tin (o : ℕ) (ho : o + 512 ≤ 2048) : ∀ a, (![o, 0] : Fin 2 → ℕ) a + S512x1024.size a ≤ S2048x1024.size a := by
  intro a; fin_cases a
  · show o + 512 ≤ 2048; exact ho
  · show 0 + 1024 ≤ 1024; omega

theorem hz3 : (![0, 0, 0] : Fin 3 → ℕ) = fun _ => 0 := by funext a; fin_cases a <;> rfl
theorem hz2 : (![0, 0] : Fin 2 → ℕ) = fun _ => 0 := by funext a; fin_cases a <;> rfl

/-- A point that is not a batch's first query tile: the block over the scratch the point before left. -/
theorem out0_B_7_eq (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : ¬cond0_0 i)
    (x0 : Vec F S1x256x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (xs2 : Vec F S2048x1024 .bf16) (xs3 : Vec F S2048x1024 .bf16) (fh0 : HbBuf0 (F := F) c hbM0_0) (fh1 : HbBuf0 (F := F) c hbM0_1) :
    out0_B_7 c i arg2 harg2 arg5 harg5 arg6 harg6 arg7 harg7 arg8 harg8 arg9 harg9 arg10 harg10 arg11 harg11 arg12 harg12 arg13 harg13 arg14 harg14 arg15 harg15 hc0 x0 x1 x2 x3 x4 x5 x6 xs2 xs3 fh0 fh1
      = vout (vstep (qProj x0 x1 x2) (vstep (qProj x0 x1 x2) (vstep (qProj x0 x1 x2) (vstep (qProj x0 x1 x2) vinit
          (tileAt xs2 0 (tin 0 (by omega))) (tileAt xs3 0 (tin 0 (by omega))))
          (tileAt xs2 512 (tin 512 (by omega))) (tileAt xs3 512 (tin 512 (by omega))))
          (tileAt xs2 1024 (tin 1024 (by omega))) (tileAt xs3 1024 (tin 1024 (by omega))))
          (tileAt xs2 1536 (tin 1536 (by omega))) (tileAt xs3 1536 (tin 1536 (by omega)))) := by
  unfold out0_B_7
  rw [View.read_writes_eq_canon _ _ _ (cover0_B_7 c i arg2 harg2 arg5 harg5 arg6 harg6 arg7 harg7 arg8 harg8 arg9 harg9 arg10 harg10 arg11 harg11 arg12 harg12 arg13 harg13 arg14 harg14 arg15 harg15 hc0 x0 x1 x2 x3 x4 x5 x6 xs2 xs3 fh0 fh1)]
  unfold kernelRun0_B; dsimp only; sl_unfold_words
  rw [View.canon_unit_zero hz3]
  simp only [View.readAt_eq_ld, harg2.read_unread, harg5.read_unread, harg6.read_unread, harg14.read_unread, harg15.read_unread,
    View.ld_unit_zero (S := S1x256x1024) hz3, View.ld_unit_zero (S := S1024x1024) hz2, View.ld_unit_zero (S := S1x1024) hz2]
  exact pay1_eq x0 x1 x2 _ _ _ _ _ _ _ _

/-- After a batch's first query tile the key scratch holds the pieces the point stored, read as one array. -/
theorem sout0_A_2_canon (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : cond0_0 i)
    (x0 : Vec F S1x256x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (fh0 : HbBuf0 (F := F) c hbM0_0) (fh1 : HbBuf0 (F := F) c hbM0_1) :
    sout0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1 = View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.1 := by
  unfold sout0_A_2
  exact View.read_writes_eq_canon VS0_2 VS0_2.junk _ (scover0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1)

/-- … and the value scratch likewise. -/
theorem sout0_A_3_canon (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : cond0_0 i)
    (x0 : Vec F S1x256x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (fh0 : HbBuf0 (F := F) c hbM0_0) (fh1 : HbBuf0 (F := F) c hbM0_1) :
    sout0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1 = View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.2.1 := by
  unfold sout0_A_3
  exact View.read_writes_eq_canon VS0_3 VS0_3.junk _ (scover0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1)

theorem out0_A_7_canon (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : cond0_0 i)
    (x0 : Vec F S1x256x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (fh0 : HbBuf0 (F := F) c hbM0_0) (fh1 : HbBuf0 (F := F) c hbM0_1) :
    out0_A_7 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1
      = vout (vstep (qProj x0 x1 x2) (vstep (qProj x0 x1 x2) (vstep (qProj x0 x1 x2) (vstep (qProj x0 x1 x2) vinit
          (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.1) 0 (tin 0 (by omega))) (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.2.1) 0 (tin 0 (by omega))))
          (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.1) 512 (tin 512 (by omega))) (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.2.1) 512 (tin 512 (by omega))))
          (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.1) 1024 (tin 1024 (by omega))) (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.2.1) 1024 (tin 1024 (by omega))))
          (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.1) 1536 (tin 1536 (by omega))) (tileAt (View.canon (kernelRun0_A c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1).2.2.1) 1536 (tin 1536 (by omega)))) := by
  unfold out0_A_7
  rw [View.read_writes_eq_canon VO0_7 VO0_7.junk _ (cover0_A_7 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1)]
  unfold kernelRun0_A; dsimp only; sl_unfold_words
  rw [View.canon_unit_zero hz3]
  simp only [View.readAt_eq_ld, harg2.read_unread, harg5.read_unread, harg6.read_unread,
    View.ld_unit_zero (S := S1x256x1024) hz3, View.ld_unit_zero (S := S1024x1024) hz2, View.ld_unit_zero (S := S1x1024) hz2,
    View.readCov_eq_canon' arg14.view, View.readCov_eq_canon' arg15.view]
  exact pay1_eq x0 x1 x2 _ _ _ _ _ _ _ _

/-- A batch's first query tile: the block over the scratch the point itself has just filled. -/
theorem out0_A_7_eq (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : cond0_0 i)
    (x0 : Vec F S1x256x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (fh0 : HbBuf0 (F := F) c hbM0_0) (fh1 : HbBuf0 (F := F) c hbM0_1) :
    out0_A_7 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1
      = vout (vstep (qProj x0 x1 x2) (vstep (qProj x0 x1 x2) (vstep (qProj x0 x1 x2) (vstep (qProj x0 x1 x2) vinit
          (tileAt (sout0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 0 (tin 0 (by omega))) (tileAt (sout0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 0 (tin 0 (by omega))))
          (tileAt (sout0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 512 (tin 512 (by omega))) (tileAt (sout0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 512 (tin 512 (by omega))))
          (tileAt (sout0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 1024 (tin 1024 (by omega))) (tileAt (sout0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 1024 (tin 1024 (by omega))))
          (tileAt (sout0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 1536 (tin 1536 (by omega))) (tileAt (sout0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1) 1536 (tin 1536 (by omega)))) := by
  rw [sout0_A_2_canon, sout0_A_3_canon]
  exact out0_A_7_canon c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1

end Cert.KernelIdeal.Gen

end
-- ==== Proof.OnlinePass.lean ====
/-
  The one-pass computation of the softmax-weighted mean gives the specification's quotient.

  A state whose three components are real numbers (μ, λ, α) and a block of real scores and values are taken by one
  step to a state of real numbers again: the block's maximum is a real number r, the new shift is μ' = max μ r, and
  the new sums are e^(μ − μ')·λ + Σ_j e^(z_j − μ') and e^(μ − μ')·α + Σ_j e^(z_j − μ')·h_j. The first step, from
  (−∞, 0, 0), has nothing to rescale: its products with 0 vanish and the state is the first block's sums at shift r.
  So after k blocks the state is (μ_k, Σ_{n < 512k} e^(z n − μ_k), Σ_{n < 512k} e^(z n − μ_k)·h n) for a real μ_k;
  after four blocks the quotient of the two sums is the quotient at shift 0, because the quotient does not depend on
  the shift.
-/
import proofs.«118870_j18597208392097_2_alg».proof.Proof.AttentionSpec

noncomputable section

namespace Cert.AttentionSpec

open Idealize.ShloMosaic Cert.Pool

/-! ## The three components of a step, as they are defined -/

theorem step_m (st : St) (s v : Fin 512 → EReal) :
    (step st s v).m = max st.m ((Finset.univ : Finset (Fin 512)).fold max (⊥ : EReal) s) := rfl

theorem step_l (st : St) (s v : Fin 512 → EReal) :
    (step st s v).l
      = Ideal.exp (st.m - max st.m ((Finset.univ : Finset (Fin 512)).fold max (⊥ : EReal) s)) * st.l
        + ∑ j : Fin 512, Ideal.exp (s j - max st.m ((Finset.univ : Finset (Fin 512)).fold max (⊥ : EReal) s)) := rfl

theorem step_acc (st : St) (s v : Fin 512 → EReal) :
    (step st s v).acc
      = Ideal.exp (st.m - max st.m ((Finset.univ : Finset (Fin 512)).fold max (⊥ : EReal) s)) * st.acc
        + ∑ j : Fin 512, Ideal.exp (s j - max st.m ((Finset.univ : Finset (Fin 512)).fold max (⊥ : EReal) s)) * v j := rfl

/-- The same two sums written with the step's own new maximum. -/
theorem step_l' (st : St) (s v : Fin 512 → EReal) :
    (step st s v).l = Ideal.exp (st.m - (step st s v).m) * st.l + ∑ j : Fin 512, Ideal.exp (s j - (step st s v).m) := rfl

theorem step_acc' (st : St) (s v : Fin 512 → EReal) :
    (step st s v).acc
      = Ideal.exp (st.m - (step st s v).m) * st.acc + ∑ j : Fin 512, Ideal.exp (s j - (step st s v).m) * v j := rfl

theorem step_eq (st : St) (s v : Fin 512 → EReal) :
    step st s v = ⟨max st.m ((Finset.univ : Finset (Fin 512)).fold max (⊥ : EReal) s),
      Ideal.exp (st.m - max st.m ((Finset.univ : Finset (Fin 512)).fold max (⊥ : EReal) s)) * st.l
        + ∑ j : Fin 512, Ideal.exp (s j - max st.m ((Finset.univ : Finset (Fin 512)).fold max (⊥ : EReal) s)),
      Ideal.exp (st.m - max st.m ((Finset.univ : Finset (Fin 512)).fold max (⊥ : EReal) s)) * st.acc
        + ∑ j : Fin 512, Ideal.exp (s j - max st.m ((Finset.univ : Finset (Fin 512)).fold max (⊥ : EReal) s)) * v j⟩ := rfl

/-! ## A block of real numbers -/

/-- The maximum of a block of real numbers, folded from −∞, is a real number. -/
theorem blk_fold_real (z : ℕ → ℝ) (k : ℕ) :
    ∃ r : ℝ, (Finset.univ : Finset (Fin 512)).fold max (⊥ : EReal) (blk z k) = (r : EReal) :=
  exists_real_fold_max Finset.univ Finset.univ_nonempty (fun j : Fin 512 => z (512 * k + j.val))

/-- The block's terms e^(z_j − μ') on the extended reals are the real ones. -/
theorem blk_exp_sum (z : ℕ → ℝ) (k : ℕ) (μ' : ℝ) :
    ∑ j : Fin 512, Ideal.exp (blk z k j - (μ' : EReal))
      = ((∑ j : Fin 512, Real.exp (z (512 * k + j.val) - μ') : ℝ) : EReal) := by
  rw [coe_sum]
  refine Finset.sum_congr rfl fun j _ => ?_
  show Ideal.exp (((z (512 * k + j.val) : ℝ) : EReal) - (μ' : EReal)) = _
  rw [← EReal.coe_sub, Ideal.exp_coe]

theorem blk_exp_mul_sum (z h : ℕ → ℝ) (k : ℕ) (μ' : ℝ) :
    ∑ j : Fin 512, Ideal.exp (blk z k j - (μ' : EReal)) * blk h k j
      = ((∑ j : Fin 512, Real.exp (z (512 * k + j.val) - μ') * h (512 * k + j.val) : ℝ) : EReal) := by
  rw [coe_sum]
  refine Finset.sum_congr rfl fun j _ => ?_
  show Ideal.exp (((z (512 * k + j.val) : ℝ) : EReal) - (μ' : EReal)) * ((h (512 * k + j.val) : ℝ) : EReal) = _
  rw [← EReal.coe_sub, Ideal.exp_coe, ← EReal.coe_mul]

/-! ## One step on a state of real numbers -/

/-- A state of real numbers and a block of real numbers give a state of real numbers, by the real formulas. -/
theorem step_real (z h : ℕ → ℝ) (k : ℕ) (μ L A : ℝ) :
    ∃ μ' : ℝ, step ⟨(μ : EReal), (L : EReal), (A : EReal)⟩ (blk z k) (blk h k)
      = ⟨(μ' : EReal),
         ((Real.exp (μ - μ') * L + ∑ j : Fin 512, Real.exp (z (512 * k + j.val) - μ') : ℝ) : EReal),
         ((Real.exp (μ - μ') * A
            + ∑ j : Fin 512, Real.exp (z (512 * k + j.val) - μ') * h (512 * k + j.val) : ℝ) : EReal)⟩ := by
  obtain ⟨r, hr⟩ := blk_fold_real z k
  refine ⟨max μ r, ?_⟩
  rw [step_eq]
  dsimp only
  rw [hr, coe_max, blk_exp_sum, blk_exp_mul_sum, ← EReal.coe_sub, Ideal.exp_coe, ← EReal.coe_mul, ← EReal.coe_mul,
    ← EReal.coe_add, ← EReal.coe_add]

/-- The first step: from (−∞, 0, 0) the state is the first block's sums at the block's own maximum. -/
theorem step_init (z h : ℕ → ℝ) :
    ∃ μ' : ℝ, step init (blk z 0) (blk h 0)
      = ⟨(μ' : EReal), ((lsum z 0 512 μ' : ℝ) : EReal), ((wsum z h 0 512 μ' : ℝ) : EReal)⟩ := by
  obtain ⟨r, hr⟩ := blk_fold_real z 0
  refine ⟨r, ?_⟩
  rw [step_eq]
  dsimp only [init]
  rw [hr, max_bot_left, mul_zero, zero_add, zero_add, blk_exp_sum, blk_exp_mul_sum]
  have hl := lsum_first z (512 * 0) 512 r
  have hw := wsum_first z h (512 * 0) 512 r
  rw [hl, hw]

/-- A further step: the sums over the rows before block k, at any shift, become the sums over the rows up to the end
    of block k, at the new shift. -/
theorem step_sums (z h : ℕ → ℝ) (k b b' : ℕ) (hb : b = 512 * k) (hb' : b' = b + 512) (μ : ℝ) :
    ∃ μ' : ℝ, step ⟨(μ : EReal), ((lsum z 0 b μ : ℝ) : EReal), ((wsum z h 0 b μ : ℝ) : EReal)⟩ (blk z k) (blk h k)
      = ⟨(μ' : EReal), ((lsum z 0 b' μ' : ℝ) : EReal), ((wsum z h 0 b' μ' : ℝ) : EReal)⟩ := by
  subst hb hb'
  obtain ⟨μ', hμ'⟩ := step_real z h k μ (lsum z 0 (512 * k) μ) (wsum z h 0 (512 * k) μ)
  refine ⟨μ', ?_⟩
  rw [hμ', lsum_step z (Nat.zero_le _) 512 μ μ', wsum_step z h (Nat.zero_le _) 512 μ μ']

/-- The state after the four blocks: the sums over all 2048 rows at some real shift. -/
theorem run4_state (z h : ℕ → ℝ) :
    ∃ μ : ℝ, run4 z h = ⟨(μ : EReal), ((lsum z 0 2048 μ : ℝ) : EReal), ((wsum z h 0 2048 μ : ℝ) : EReal)⟩ := by
  obtain ⟨μ1, h1⟩ := step_init z h
  obtain ⟨μ2, h2⟩ := step_sums z h 1 512 1024 (by norm_num) (by norm_num) μ1
  obtain ⟨μ3, h3⟩ := step_sums z h 2 1024 1536 (by norm_num) (by norm_num) μ2
  obtain ⟨μ4, h4⟩ := step_sums z h 3 1536 2048 (by norm_num) (by norm_num) μ3
  exact ⟨μ4, by rw [run4, h1, h2, h3, h4]⟩

/-- The one-pass computation's quotient is the specification's. -/
theorem run4_quot (z h : ℕ → ℝ) :
    Ideal.div (run4 z h).acc (run4 z h).l = ((wsum z h 0 2048 0 / lsum z 0 2048 0 : ℝ) : EReal) := by
  obtain ⟨μ, hμ⟩ := run4_state z h
  rw [hμ]
  dsimp only
  rw [div_coe_coe _ (lsum_pos z (by norm_num) μ).ne', pool_shift z h 0 2048 μ 0]

end Cert.AttentionSpec

end
-- ==== Proof.BlockBridge.lean ====
/-
  One query tile's block is the specification's attention at its rows.

  The tile's projected queries are real numbers: row p of the tile is row s0 + p of batch b, and its entry d is the
  dense projection of that row times 2⁻⁵ = 1/32. The entries of a projected key tile and of a projected value tile are
  the projections of the key rows 512·κ + j. So the scores the step takes in for key tile κ — the inner products of the
  scaled query row with the tile's key rows — are block κ of the specification's scores z of that query row
  (Σ_d (a_d · 1/32) · k_d = (Σ_d a_d · k_d) · 1/32), and the tile's value column e is block κ of the specification's
  value column h. Entry by entry the four vector steps are therefore the four scalar steps on z and h, whose quotient
  is the specification's.
-/
import proofs.«118870_j18597208392097_2_alg».proof.Proof.AttentionBlock
import proofs.«118870_j18597208392097_2_alg».proof.Proof.OnlinePass

noncomputable section

namespace Cert.KernelIdeal.Block

open Cert.KernelIdeal Idealize.ShloMosaic Idealize.ShloMosaic.ValueIdx Cert.AttentionSpec

/-- The f32 word 0x3D000000 denotes 2⁻⁵ = 1/32. -/
theorem ofBits_scale : Ideal.ofBits .f32 0x3D000000#32 = ((1 / 32 : ℝ) : EReal) := by
  simp [Ideal.ofBits, Ideal.ieee]
  rw [← EReal.coe_mul]
  congr 1
  norm_num

/-- A dense projection of arrays of real numbers, computed on the extended reals, is the real projection. -/
theorem proj_coe (x : Act.Idx → EReal) (W : Wt.Idx → EReal) (bias : Bias.Idx → EReal)
    (hx : IsReal x) (hW : IsReal W) (hb : IsReal bias) (b : Fin 4) (s : Fin 2048) (d : Fin 1024) :
    (∑ c : Fin 1024, x (ix3 b s c) * W (ix2 c d)) + bias (ix1 d) = ((proj x W bias b s d : ℝ) : EReal) := by
  unfold proj
  rw [EReal.coe_add, Cert.Pool.coe_sum, ← hb (ix1 d)]
  refine congrArg (· + bias (ix1 d)) ?_
  refine Finset.sum_congr rfl fun c _ => ?_
  rw [EReal.coe_mul, ← hx (ix3 b s c), ← hW (ix2 c d)]

/-- The scores of a scaled query row against a tile of key rows are a block of the specification's scores. -/
theorem scores_blk (qp : FVec Ideal S256x1024 .bf16) (t : Vec Ideal S512x1024 .bf16) (Q K : Fin 2048 → Fin 1024 → ℝ)
    (s : Fin 2048) (κ : ℕ) (p : Fin 256)
    (hqp : ∀ d : Fin 1024, qp (ix2 p d) = ((Q s d * (1 / 32) : ℝ) : EReal))
    (ht : ∀ (j : Fin 512) (d : Fin 1024), t (ix2 j d) = ((K (row (512 * κ + j.val)) d : ℝ) : EReal)) :
    (fun j : Fin 512 => ∑ d : Fin 1024, qp (ix2 p d) * t (ix2 j d)) = blk (score Q K s) κ := by
  funext j
  show _ = (((∑ e : Fin 1024, Q s e * K (row (512 * κ + j.val)) e) * (1 / 32) : ℝ) : EReal)
  rw [Finset.sum_mul, Cert.Pool.coe_sum]
  refine Finset.sum_congr rfl fun d _ => ?_
  rw [hqp d, ht j d, ← EReal.coe_mul]
  congr 1
  ring

/-- A column of a tile of value rows is a block of the specification's value column. -/
theorem values_blk (u : Vec Ideal S512x1024 .bf16) (V : Fin 2048 → Fin 1024 → ℝ) (κ : ℕ) (e : Fin 1024)
    (hu : ∀ (j : Fin 512) (d : Fin 1024), u (ix2 j d) = ((V (row (512 * κ + j.val)) d : ℝ) : EReal)) :
    (fun j : Fin 512 => u (ix2 j e)) = blk (fun n => V (row n) e) κ := by
  funext j
  exact hu j e

variable [Facts]

/-- The tile's scaled projected queries are real numbers: the projection of row s0 + p, times 1/32. -/
theorem qProj_coe (q : Act.Idx → EReal) (Wq : Wt.Idx → EReal) (bq : Bias.Idx → EReal)
    (hq : IsReal q) (hWq : IsReal Wq) (hbq : IsReal bq) (b : Fin 4) (s0 : ℕ)
    (X : Vec Ideal S1x256x1024 .f32) (W : Vec Ideal S1024x1024 .bf16) (B2 : Vec Ideal S1x1024 .f32)
    (hX : ∀ (p : Fin 256) (c : Fin 1024), X (ix3 (0 : Fin 1) p c) = q (ix3 b (row (s0 + p.val)) c))
    (hW : ∀ (c d : Fin 1024), W (ix2 c d) = Wq (ix2 c d))
    (hB : ∀ d : Fin 1024, B2 (ix2 (0 : Fin 1) d) = bq (ix1 d))
    (p : Fin 256) (d : Fin 1024) :
    qProj X W B2 (ix2 p d) = ((proj q Wq bq b (row (s0 + p.val)) d * (1 / 32) : ℝ) : EReal) := by
  rw [qProj_apply, ofBits_scale, EReal.coe_mul, ← proj_coe q Wq bq hq hWq hbq b (row (s0 + p.val)) d, hB d]
  refine congrArg (fun t => (t + bq (ix1 d)) * ((1 / 32 : ℝ) : EReal)) ?_
  refine Finset.sum_congr rfl fun c _ => ?_
  rw [hX p c, hW c d]

/-- THE BLOCK OF A QUERY TILE, entry by entry, is the specification's attention at the tile's rows. -/
theorem block_eq_G
    (q k v : Act.Idx → EReal) (Wq : Wt.Idx → EReal) (bq : Bias.Idx → EReal) (Wk : Wt.Idx → EReal) (bk : Bias.Idx → EReal)
    (Wv : Wt.Idx → EReal) (bv : Bias.Idx → EReal)
    (hq : IsReal q) (hk : IsReal k) (hv : IsReal v) (hWq : IsReal Wq) (hbq : IsReal bq) (hWk : IsReal Wk) (hbk : IsReal bk)
    (hWv : IsReal Wv) (hbv : IsReal bv)
    (b : Fin 4) (s0 : ℕ)
    (X : Vec Ideal S1x256x1024 .f32) (W : Vec Ideal S1024x1024 .bf16) (B2 : Vec Ideal S1x1024 .f32)
    (t0 t1 t2 t3 u0 u1 u2 u3 : Vec Ideal S512x1024 .bf16)
    (hX : ∀ (p : Fin 256) (c : Fin 1024), X (ix3 (0 : Fin 1) p c) = q (ix3 b (row (s0 + p.val)) c))
    (hW : ∀ (c d : Fin 1024), W (ix2 c d) = Wq (ix2 c d))
    (hB : ∀ d : Fin 1024, B2 (ix2 (0 : Fin 1) d) = bq (ix1 d))
    (ht0 : ∀ (j : Fin 512) (d : Fin 1024), t0 (ix2 j d) = (∑ c : Fin 1024, k (ix3 b (row (512 * 0 + j.val)) c) * Wk (ix2 c d)) + bk (ix1 d))
    (ht1 : ∀ (j : Fin 512) (d : Fin 1024), t1 (ix2 j d) = (∑ c : Fin 1024, k (ix3 b (row (512 * 1 + j.val)) c) * Wk (ix2 c d)) + bk (ix1 d))
    (ht2 : ∀ (j : Fin 512) (d : Fin 1024), t2 (ix2 j d) = (∑ c : Fin 1024, k (ix3 b (row (512 * 2 + j.val)) c) * Wk (ix2 c d)) + bk (ix1 d))
    (ht3 : ∀ (j : Fin 512) (d : Fin 1024), t3 (ix2 j d) = (∑ c : Fin 1024, k (ix3 b (row (512 * 3 + j.val)) c) * Wk (ix2 c d)) + bk (ix1 d))
    (hu0 : ∀ (j : Fin 512) (d : Fin 1024), u0 (ix2 j d) = (∑ c : Fin 1024, v (ix3 b (row (512 * 0 + j.val)) c) * Wv (ix2 c d)) + bv (ix1 d))
    (hu1 : ∀ (j : Fin 512) (d : Fin 1024), u1 (ix2 j d) = (∑ c : Fin 1024, v (ix3 b (row (512 * 1 + j.val)) c) * Wv (ix2 c d)) + bv (ix1 d))
    (hu2 : ∀ (j : Fin 512) (d : Fin 1024), u2 (ix2 j d) = (∑ c : Fin 1024, v (ix3 b (row (512 * 2 + j.val)) c) * Wv (ix2 c d)) + bv (ix1 d))
    (hu3 : ∀ (j : Fin 512) (d : Fin 1024), u3 (ix2 j d) = (∑ c : Fin 1024, v (ix3 b (row (512 * 3 + j.val)) c) * Wv (ix2 c d)) + bv (ix1 d))
    (p : Fin 256) (e : Fin 1024) :
    vout (vstep (qProj X W B2) (vstep (qProj X W B2) (vstep (qProj X W B2) (vstep (qProj X W B2) vinit t0 u0) t1 u1) t2 u2) t3 u3)
        (ix3 (0 : Fin 1) p e)
      = G q k v Wq bq Wk bk Wv bv (ix3 b (row (s0 + p.val)) e) := by
  have hqp := qProj_coe q Wq bq hq hWq hbq b s0 X W B2 hX hW hB p
  have hs : ∀ (κ : ℕ) (t : Vec Ideal S512x1024 .bf16),
      (∀ (j : Fin 512) (d : Fin 1024), t (ix2 j d)
        = (∑ c : Fin 1024, k (ix3 b (row (512 * κ + j.val)) c) * Wk (ix2 c d)) + bk (ix1 d)) →
      (fun j : Fin 512 => ∑ d : Fin 1024, qProj X W B2 (ix2 p d) * t (ix2 j d))
        = blk (score (proj q Wq bq b) (proj k Wk bk b) (row (s0 + p.val))) κ :=
    fun κ t ht => scores_blk (qProj X W B2) t (proj q Wq bq b) (proj k Wk bk b) (row (s0 + p.val)) κ p hqp
      fun j d => (ht j d).trans (proj_coe k Wk bk hk hWk hbk b (row (512 * κ + j.val)) d)
  have hv' : ∀ (κ : ℕ) (u : Vec Ideal S512x1024 .bf16),
      (∀ (j : Fin 512) (d : Fin 1024), u (ix2 j d)
        = (∑ c : Fin 1024, v (ix3 b (row (512 * κ + j.val)) c) * Wv (ix2 c d)) + bv (ix1 d)) →
      (fun j : Fin 512 => u (ix2 j e)) = blk (fun n => proj v Wv bv b (row n) e) κ :=
    fun κ u hu => values_blk u (proj v Wv bv b) κ e
      fun j d => (hu j d).trans (proj_coe v Wv bv hv hWv hbv b (row (512 * κ + j.val)) d)
  rw [vout_apply, rd_vstep, rd_vstep, rd_vstep, rd_vstep, rd_vinit, G_apply,
    hs 0 t0 ht0, hs 1 t1 ht1, hs 2 t2 ht2, hs 3 t3 ht3, hv' 0 u0 hu0, hv' 1 u1 hu1, hv' 2 u2 hu2, hv' 3 u3 hu3]
  exact run4_quot (score (proj q Wq bq b) (proj k Wk bk b) (row (s0 + p.val))) (fun n => proj v Wv bv b (row n) e)

end Cert.KernelIdeal.Block

end
-- ==== Proof.KernelArray.lean ====
/-
  From the kernel's blocks to whole arrays. The kernel runs on a grid of 32 points, 4 batches by 8 blocks of 256 query rows;
  point t works on rows 256 · (t % 8) … 256 · (t % 8) + 255 of batch t / 8.

  · The query window's block at point t, and the output window's block of any whole array, sit in the [4, 2048, 1024] array at
    batch t / 8, rows 256 · (t % 8) + p, all 1024 columns: on each axis a block's element is at block index × block size +
    its coordinate inside the block, and the block indices are (t / 8, t % 8, 0).
  · The three weight matrices and the three biases are staged whole at every point (block index (0, 0)); before the region
    the weights change format, which is the identity on the extended reals, and the biases are reshaped from [1024] to
    [1, 1024], entry (0, d) being entry d.
  · Every index (b, r, e) of the output array lies in the block of the point 8 · b + r / 256, and every point writes its
    block back: if each point writes the block of one whole array X, the output array ends holding X.
-/
import proofs.«118870_j18597208392097_2_alg».proof.Proof.Gen.KernelIdeal.Value
import proofs.«118870_j18597208392097_2_alg».proof.Proof.AttentionSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KArray

open Cert.KernelIdeal Cert.KernelIdeal.Gen Idealize.ShloMosaic Idealize.ShloMosaic.TcCoe Idealize.SL.Sem
open Idealize.ShloMosaic.Pipeline (Dat)
open Idealize.ShloMosaic.ValueIdx Cert.AttentionSpec

variable (m : (ℓ : Loc nD τ sig) → Buf (Elt Ideal) ℓ)

/-! ## The grid and the index maps -/

/-- The grid's 32 points are 4 batches of 8 row blocks: point t is row block t % 8 of batch t / 8. -/
theorem batch_lt (t : Fin cfg0.N) : t.val / 8 < 4 := by
  have hN : cfg0.N = 32 := N_0
  have := t.isLt
  omega

/-- The block indices of the query window and of the output window at point t are (t / 8, t % 8, 0). -/
theorem idx_facts07 : ∀ t : Fin cfg0.N,
    win0_0.index t (0 : Fin 3) = t.val / 8 ∧ win0_0.index t (1 : Fin 3) = t.val % 8 ∧ win0_0.index t (2 : Fin 3) = 0
    ∧ win0_7.index t (0 : Fin 3) = t.val / 8 ∧ win0_7.index t (1 : Fin 3) = t.val % 8 ∧ win0_7.index t (2 : Fin 3) = 0 :=
  (by decide +kernel : ∀ t : Fin grid0.N, _)

/-! ## The output window's block, read at coordinates -/

/-- Block t of a whole [4, 2048, 1024] array X, read through the output window at (0, p, e), is X at batch t / 8, row
    256 · (t % 8) + p, column e. -/
theorem read_blk7 (X : S4x2048x1024.Idx → EReal) (t : Fin cfg0.N) (p : Fin 256) (e : Fin 1024) :
    ((cfg0.win 7).blk t).view.read (Elt Ideal) X (ix3 (0 : Fin 1) p e)
      = X (ix3 (⟨t.val / 8, batch_lt t⟩ : Fin 4) (row (256 * (t.val % 8) + p.val)) e) := by
  obtain ⟨-, -, -, e0, e1, e2⟩ := idx_facts07 t
  have hp : p.val < 256 := p.isLt
  rw [View.read_apply]
  show X _ = X _
  congr 1
  funext a
  apply Fin.ext
  match a with
  | ⟨0, _⟩ => show win0_7.index t (0 : Fin 3) * 1 + 1 * 0 = t.val / 8; omega
  | ⟨1, _⟩ =>
    show win0_7.index t (1 : Fin 3) * 256 + 1 * p.val = (row (256 * (t.val % 8) + p.val)).val
    rw [row_val (by omega)]; omega
  | ⟨2, _⟩ => show win0_7.index t (2 : Fin 3) * 1024 + 1 * e.val = e.val; omega

/-! ## From the blocks to the array -/

/-- An index of the array is in point t's block of the output window iff each coordinate is in the block's range on its
    axis. -/
theorem mem_blk7 (t : Fin cfg0.N) (i : S4x2048x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v6).slice (win0_7.rect t)).set ↔ _
  rw [View.set_slice_whole, Rect.mem_set_unit]
  exact Iff.rfl

/-- Every index (b, r, e) of the array is in the block of the point 8 · b + r / 256, and every point writes its block
    back. -/
theorem cover7 (i : S4x2048x1024.Idx) :
    ∃ t : Fin cfg0.N, (cfg0.win 7).flush t = true ∧ i ∈ ((cfg0.win 7).blk t).view.set := by
  have hN : cfg0.N = 32 := N_0
  have h0 : (i 0).val < 4 := (i 0).isLt
  have h1 : (i 1).val < 2048 := (i 1).isLt
  have h2 : (i 2).val < 1024 := (i 2).isLt
  obtain ⟨t, ht⟩ : ∃ t : Fin cfg0.N, t.val = 8 * (i 0).val + (i 1).val / 256 := ⟨⟨_, by omega⟩, rfl⟩
  obtain ⟨-, -, -, e0, e1, e2⟩ := idx_facts07 t
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 256 ≤ (i 1).val ∧ (i 1).val < win0_7.index t (1 : Fin 3) * 256 + 256
    omega
  | ⟨2, _⟩ =>
    show win0_7.index t (2 : Fin 3) * 1024 ≤ (i 2).val ∧ (i 2).val < win0_7.index t (2 : Fin 3) * 1024 + 1024
    omega

/-- If every point writes back its block of one whole array X, the output array ends holding X. -/
theorem final_of_flushed (c : Dev nD) (X : S4x2048x1024.Idx → EReal)
    (hfl : ∀ t : Fin cfg0.N, (dats m 0 c).flushed 7 t = ((cfg0.win 7).blk t).view.read (Elt Ideal) X) :
    (dats m 0 c).arrAt 7 cfg0.N = X :=
  (dats m 0 c).arrAt_eq_of_cover 7 X (fun t _ => hfl t) cover7

/-! ## The input windows' arrays as the region finds them -/

/-- The key and value activations are no window's array and no host operation writes them: the region finds them as
    launched. -/
theorem V_arg1 (c : Dev nD) : V m c main_arg1 = m ((c : Thread nD τ).loc main_arg1) := V_main_arg1 m c
theorem V_arg2 (c : Dev nD) : V m c main_arg2 = m ((c : Thread nD τ).loc main_arg2) := V_main_arg2 m c

/-- The three weight matrices reach the region through a change of format, which on the extended reals is the identity. -/
theorem V_v0 (c : Dev nD) : (V m c main_v0 : S1024x1024.Idx → EReal) = m ((c : Thread nD τ).loc main_arg3) := by
  dsimp only [Gen.V, Gen.hostOps0]; after_results; rfl
theorem V_v1 (c : Dev nD) : (V m c main_v1 : S1024x1024.Idx → EReal) = m ((c : Thread nD τ).loc main_arg5) := by
  dsimp only [Gen.V, Gen.hostOps0]; after_results; rfl
theorem V_v2 (c : Dev nD) : (V m c main_v2 : S1024x1024.Idx → EReal) = m ((c : Thread nD τ).loc main_arg7) := by
  dsimp only [Gen.V, Gen.hostOps0]; after_results; rfl

/-- The three biases reach the region reshaped from [1024] to [1, 1024]: entry (0, d) is entry d. -/
theorem V_v3_apply (c : Dev nD) (d : Fin 1024) :
    (V m c main_v3 : S1x1024.Idx → EReal) (ix2 (0 : Fin 1) d) = m ((c : Thread nD τ).loc main_arg4) (ix1 d) := by
  have e : (V m c main_v3 : S1x1024.Idx → EReal)
      = shapeCast S1x1024 (m ((c : Thread nD τ).loc main_arg4) : S1024.Idx → EReal) Facts₀.shapeCasts_S1024_S1x1024 := by
    dsimp only [Gen.V, Gen.hostOps0]; after_results; rfl
  rw [e]
  refine shapeCast_apply _ _ _ (ix1 d) ?_
  rw [Shape.rowMajor_val_one, Shape.rowMajor_val_two]
  show d.val = 0 * 1024 + d.val
  omega
theorem V_v4_apply (c : Dev nD) (d : Fin 1024) :
    (V m c main_v4 : S1x1024.Idx → EReal) (ix2 (0 : Fin 1) d) = m ((c : Thread nD τ).loc main_arg6) (ix1 d) := by
  have e : (V m c main_v4 : S1x1024.Idx → EReal)
      = shapeCast S1x1024 (m ((c : Thread nD τ).loc main_arg6) : S1024.Idx → EReal) Facts₀.shapeCasts_S1024_S1x1024 := by
    dsimp only [Gen.V, Gen.hostOps0]; after_results; rfl
  rw [e]
  refine shapeCast_apply _ _ _ (ix1 d) ?_
  rw [Shape.rowMajor_val_one, Shape.rowMajor_val_two]
  show d.val = 0 * 1024 + d.val
  omega
theorem V_v5_apply (c : Dev nD) (d : Fin 1024) :
    (V m c main_v5 : S1x1024.Idx → EReal) (ix2 (0 : Fin 1) d) = m ((c : Thread nD τ).loc main_arg8) (ix1 d) := by
  have e : (V m c main_v5 : S1x1024.Idx → EReal)
      = shapeCast S1x1024 (m ((c : Thread nD τ).loc main_arg8) : S1024.Idx → EReal) Facts₀.shapeCasts_S1024_S1x1024 := by
    dsimp only [Gen.V, Gen.hostOps0]; after_results; rfl
  rw [e]
  refine shapeCast_apply _ _ _ (ix1 d) ?_
  rw [Shape.rowMajor_val_one, Shape.rowMajor_val_two]
  show d.val = 0 * 1024 + d.val
  omega

/-! ## The input windows' blocks, read at coordinates -/

/-- Windows 1 to 6 stage one whole block each: their block index is (0, 0) at every point. -/
theorem idx_facts_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The query block at point t, at (0, p, d), is the query at batch t / 8, row 256 · (t % 8) + p, column d. -/
theorem iblk0_apply (c : Dev nD) (t : Fin cfg0.N) (p : Fin 256) (d : Fin 1024) :
    iblk m c 0 t (ix3 (0 : Fin 1) p d)
      = m ((c : Thread nD τ).loc main_arg0) (ix3 (⟨t.val / 8, batch_lt t⟩ : Fin 4) (row (256 * (t.val % 8) + p.val)) d) := by
  obtain ⟨e0, e1, e2, -, -, -⟩ := idx_facts07 t
  have hp : p.val < 256 := p.isLt
  unfold iblk
  rw [View.read_apply]
  show V m c main_arg0 _ = _
  rw [V_main_arg0]
  show m _ _ = m _ _
  congr 1
  funext a
  apply Fin.ext
  match a with
  | ⟨0, _⟩ => show win0_0.index t (0 : Fin 3) * 1 + 1 * 0 = t.val / 8; omega
  | ⟨1, _⟩ =>
    show win0_0.index t (1 : Fin 3) * 256 + 1 * p.val = (row (256 * (t.val % 8) + p.val)).val
    rw [row_val (by omega)]; omega
  | ⟨2, _⟩ => show win0_0.index t (2 : Fin 3) * 1024 + 1 * d.val = d.val; omega

/-- The query weights' block at any point is the whole matrix. -/
theorem iblk1_apply (c : Dev nD) (t : Fin cfg0.N) (a d : Fin 1024) :
    iblk m c 1 t (ix2 a d) = m ((c : Thread nD τ).loc main_arg3) (ix2 a d) := by
  obtain ⟨e0, e1, -⟩ := idx_facts_whole t
  unfold iblk
  rw [View.read_apply]
  show (V m c main_v0 : S1024x1024.Idx → EReal) _ = _
  rw [V_v0]
  congr 1
  funext k
  apply Fin.ext
  match k with
  | ⟨0, _⟩ => show win0_1.index t (0 : Fin 2) * 1024 + 1 * a.val = a.val; omega
  | ⟨1, _⟩ => show win0_1.index t (1 : Fin 2) * 1024 + 1 * d.val = d.val; omega

/-- The query bias's block at any point is the whole bias, as one row. -/
theorem iblk2_apply (c : Dev nD) (t : Fin cfg0.N) (d : Fin 1024) :
    iblk m c 2 t (ix2 (0 : Fin 1) d) = m ((c : Thread nD τ).loc main_arg4) (ix1 d) := by
  obtain ⟨-, -, e0, e1, -⟩ := idx_facts_whole t
  unfold iblk
  rw [View.read_apply]
  show (V m c main_v3 : S1x1024.Idx → EReal) _ = _
  refine Eq.trans (congrArg _ ?_) (V_v3_apply m c d)
  funext k
  apply Fin.ext
  match k with
  | ⟨0, _⟩ => show win0_2.index t (0 : Fin 2) * 1 + 1 * 0 = 0; omega
  | ⟨1, _⟩ => show win0_2.index t (1 : Fin 2) * 1024 + 1 * d.val = d.val; omega

/-- The key weights' block at any point is the whole matrix. -/
theorem iblk3_apply (c : Dev nD) (t : Fin cfg0.N) (a d : Fin 1024) :
    iblk m c 3 t (ix2 a d) = m ((c : Thread nD τ).loc main_arg5) (ix2 a d) := by
  obtain ⟨-, -, -, -, e0, e1, -⟩ := idx_facts_whole t
  unfold iblk
  rw [View.read_apply]
  show (V m c main_v1 : S1024x1024.Idx → EReal) _ = _
  rw [V_v1]
  congr 1
  funext k
  apply Fin.ext
  match k with
  | ⟨0, _⟩ => show win0_3.index t (0 : Fin 2) * 1024 + 1 * a.val = a.val; omega
  | ⟨1, _⟩ => show win0_3.index t (1 : Fin 2) * 1024 + 1 * d.val = d.val; omega

/-- The key bias's block at any point is the whole bias, as one row. -/
theorem iblk4_apply (c : Dev nD) (t : Fin cfg0.N) (d : Fin 1024) :
    iblk m c 4 t (ix2 (0 : Fin 1) d) = m ((c : Thread nD τ).loc main_arg6) (ix1 d) := by
  obtain ⟨-, -, -, -, -, -, e0, e1, -⟩ := idx_facts_whole t
  unfold iblk
  rw [View.read_apply]
  show (V m c main_v4 : S1x1024.Idx → EReal) _ = _
  refine Eq.trans (congrArg _ ?_) (V_v4_apply m c d)
  funext k
  apply Fin.ext
  match k with
  | ⟨0, _⟩ => show win0_4.index t (0 : Fin 2) * 1 + 1 * 0 = 0; omega
  | ⟨1, _⟩ => show win0_4.index t (1 : Fin 2) * 1024 + 1 * d.val = d.val; omega

/-- The value weights' block at any point is the whole matrix. -/
theorem iblk5_apply (c : Dev nD) (t : Fin cfg0.N) (a d : Fin 1024) :
    iblk m c 5 t (ix2 a d) = m ((c : Thread nD τ).loc main_arg7) (ix2 a d) := by
  obtain ⟨-, -, -, -, -, -, -, -, e0, e1, -⟩ := idx_facts_whole t
  unfold iblk
  rw [View.read_apply]
  show (V m c main_v2 : S1024x1024.Idx → EReal) _ = _
  rw [V_v2]
  congr 1
  funext k
  apply Fin.ext
  match k with
  | ⟨0, _⟩ => show win0_5.index t (0 : Fin 2) * 1024 + 1 * a.val = a.val; omega
  | ⟨1, _⟩ => show win0_5.index t (1 : Fin 2) * 1024 + 1 * d.val = d.val; omega

/-- The value bias's block at any point is the whole bias, as one row. -/
theorem iblk6_apply (c : Dev nD) (t : Fin cfg0.N) (d : Fin 1024) :
    iblk m c 6 t (ix2 (0 : Fin 1) d) = m ((c : Thread nD τ).loc main_arg8) (ix1 d) := by
  obtain ⟨-, -, -, -, -, -, -, -, -, -, e0, e1⟩ := idx_facts_whole t
  unfold iblk
  rw [View.read_apply]
  show (V m c main_v5 : S1x1024.Idx → EReal) _ = _
  refine Eq.trans (congrArg _ ?_) (V_v5_apply m c d)
  funext k
  apply Fin.ext
  match k with
  | ⟨0, _⟩ => show win0_6.index t (0 : Fin 2) * 1 + 1 * 0 = 0; omega
  | ⟨1, _⟩ => show win0_6.index t (1 : Fin 2) * 1024 + 1 * d.val = d.val; omega

end Cert.KernelIdeal.KArray

end
-- ==== Proof.ScratchFill.lean ====
/-
  What the key and value scratch arrays hold after a batch's first query tile, entry by entry.

  At the first query tile of batch b the body copies the batch's [2048, 1024] rows of the key input and of the value
  input into two buffers, and fills each scratch array with four stores of 512 rows: the store at row offset 512·κ is
  the dense projection (rows · W + bias) of the 512 rows of the copy at that offset. The copy reads the input at
  (b, n, c'): it is the [1, 2048, 1024] slice at batch offset b with the unit axis dropped, and row n, column c' of a
  [2048, 1024] array sits at the same row-major position as (0, n, c') of the [1, 2048, 1024] one. The four stores
  tile the scratch array, and each is the block at its offset of ONE function of the array index — row n, column d
  ↦ Σ_c' input(b, n, c') · W(c', d) + bias(d) — so the array holds that function everywhere.
-/
import proofs.«118870_j18597208392097_2_alg».proof.Proof.Gen.KernelIdeal.Frame
import proofs.«118870_j18597208392097_2_alg».proof.Proof.AttentionPayload

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Block
open Idealize.ShloMosaic.ValueIdx

variable {F : FTy → Type} [FloatOps F]

/-! ## Indices -/

theorem fill_hz2 : (![0, 0] : Fin 2 → ℕ) = fun _ => 0 := by funext a; fin_cases a <;> rfl

/-- Row n, column c' of a [2048, 1024] array is row 0·2048 + n of the [1, 2048, 1024] array with the same elements. -/
theorem fill_reshape (n : Fin 2048) (c' : Fin 1024) (h : S2048x1024.numel = S1x2048x1024.numel) :
    Shape.reshapeEquiv h (ix2 n c') = ix3 (0 : Fin 1) n c' :=
  Shape.reshapeEquiv_eq_of_rowMajor h (by
    rw [Shape.rowMajor_val_three, Shape.rowMajor_val_two]
    show (0 * 2048 + n.val) * 1024 + c'.val = n.val * 1024 + c'.val
    rw [Nat.zero_mul, Nat.zero_add])

/-- Where row j, column d of the tile of 512 rows at row offset o sits in the [2048, 1024] array. -/
theorem fill_emb (o : ℕ) (hin : ∀ a, (![o, 0] : Fin 2 → ℕ) a + S512x1024.size a ≤ S2048x1024.size a) (ho : o + 512 ≤ 2048)
    (j : Fin 512) (d : Fin 1024) :
    (Rect.unit (s := S2048x1024) ![o, 0] S512x1024.size hin).emb (ix2 j d) = ix2 (⟨o + j.val, by omega⟩ : Fin 2048) d := by
  funext a
  apply Fin.ext
  rw [Rect.emb_apply]
  match a with
  | ⟨0, _⟩ => show o + 1 * j.val = o + j.val; omega
  | ⟨1, _⟩ => show 0 + 1 * d.val = d.val; omega

/-! ## The batch's rows as the body's own copy reads them -/

/-- The [2048, 1024] view of batch b of the key input (one [1, 2048, 1024] slice of the [4, 2048, 1024] array with its unit axis dropped) reads, at row n and column c', the array at (b, n, c'). -/
theorem fill_src1 (c : Dev nD) (fh : HbBuf0 (F := F) c hbM0_0) (off : Fin 3 → ℕ)
    (hin : ∀ a, off a + S1x2048x1024.size a ≤ S4x2048x1024.size a)
    (hst : ∀ a, (Rect.unit (s := S4x2048x1024) off S1x2048x1024.size hin).stride a = 1)
    (b : Fin 4) (h0 : off 0 = b.val) (h1 : off 1 = 0) (h2 : off 2 = 0) (n : Fin 2048) (c' : Fin 1024) :
    View.read (Elt F) (((Memref.whole main_arg1).slice (Rect.unit (s := S4x2048x1024) off S1x2048x1024.size hin) hst).squeeze S2048x1024
        squeezes_S1x2048x1024_S2048x1024).view fh (ix2 n c')
      = fh (ix3 b n c') := by
  rw [View.read_apply]
  refine (cast_eq _ _).trans ?_
  refine congrArg fh ?_
  show (Rect.unit (s := S4x2048x1024) off S1x2048x1024.size hin).emb (Shape.reshapeEquiv _ (ix2 n c')) = ix3 b n c'
  rw [fill_reshape n c']
  funext a
  apply Fin.ext
  rw [Rect.emb_apply]
  match a with
  | ⟨0, _⟩ => show off 0 + 1 * (0 : ℕ) = b.val; omega
  | ⟨1, _⟩ => show off 1 + 1 * n.val = n.val; omega
  | ⟨2, _⟩ => show off 2 + 1 * c'.val = c'.val; omega

/-- The same for the value input. -/
theorem fill_src2 (c : Dev nD) (fh : HbBuf0 (F := F) c hbM0_1) (off : Fin 3 → ℕ)
    (hin : ∀ a, off a + S1x2048x1024.size a ≤ S4x2048x1024.size a)
    (hst : ∀ a, (Rect.unit (s := S4x2048x1024) off S1x2048x1024.size hin).stride a = 1)
    (b : Fin 4) (h0 : off 0 = b.val) (h1 : off 1 = 0) (h2 : off 2 = 0) (n : Fin 2048) (c' : Fin 1024) :
    View.read (Elt F) (((Memref.whole main_arg2).slice (Rect.unit (s := S4x2048x1024) off S1x2048x1024.size hin) hst).squeeze S2048x1024
        squeezes_S1x2048x1024_S2048x1024).view fh (ix2 n c')
      = fh (ix3 b n c') := by
  rw [View.read_apply]
  refine (cast_eq _ _).trans ?_
  refine congrArg fh ?_
  show (Rect.unit (s := S4x2048x1024) off S1x2048x1024.size hin).emb (Shape.reshapeEquiv _ (ix2 n c')) = ix3 b n c'
  rw [fill_reshape n c']
  funext a
  apply Fin.ext
  rw [Rect.emb_apply]
  match a with
  | ⟨0, _⟩ => show off 0 + 1 * (0 : ℕ) = b.val; omega
  | ⟨1, _⟩ => show off 1 + 1 * n.val = n.val; omega
  | ⟨2, _⟩ => show off 2 + 1 * c'.val = c'.val; omega

/-! ## One stored tile -/

/-- A tile of 512 rows at row offset o, read back from a buffer one whole store filled with Xs, projected: at row j and
    column d it is the dense projection of row o + j of Xs. -/
theorem fill_tile (v : View sig .tc .vmem S2048x1024 .f32) (Xs : S2048x1024.Idx → Elt Ideal .f32)
    (W : Vec Ideal S1024x1024 .bf16) (bias : Vec Ideal S1x1024 .f32)
    (o : ℕ) (hin : ∀ a, (![o, 0] : Fin 2 → ℕ) a + S512x1024.size a ≤ S2048x1024.size a) (ho : o + 512 ≤ 2048)
    (j : Fin 512) (d : Fin 1024) :
    tileProj (v.readCov [⟨Rect.whole S2048x1024, Xs⟩] (Rect.unit (s := S2048x1024) ![o, 0] S512x1024.size hin).toLoadRect) W bias (ix2 j d)
      = (∑ c' : Fin 1024, Xs (ix2 (⟨o + j.val, by omega⟩ : Fin 2048) c') * W (ix2 c' d)) + bias (ix2 (0 : Fin 1) d) := by
  rw [tileProj_apply]
  refine congrArg (· + bias (ix2 (0 : Fin 1) d)) ?_
  refine Finset.sum_congr rfl fun c' _ => ?_
  refine congrArg (· * W (ix2 c' d)) ?_
  rw [View.readCov_eq_canon']
  have hc : View.canon [(⟨Rect.whole S2048x1024, Xs⟩ : View.Piece (Elt Ideal) S2048x1024 .f32)] = Xs :=
    View.canon_unit_zero (off := fun _ => 0) rfl _ Xs
  show View.canon [(⟨Rect.whole S2048x1024, Xs⟩ : View.Piece (Elt Ideal) S2048x1024 .f32)]
      ((Rect.unit (s := S2048x1024) ![o, 0] S512x1024.size hin).emb (ix2 j c')) = _
  rw [hc, fill_emb o hin ho j c']

/-- The same through the tile's own index x, as a function of where x sits in the array — for any source Xs that reads
    Y n c' at row n, column c'. -/
theorem fill_piece (v : View sig .tc .vmem S2048x1024 .f32) (Xs : S2048x1024.Idx → Elt Ideal .f32)
    (Y : Fin 2048 → Fin 1024 → EReal) (W : Vec Ideal S1024x1024 .bf16) (bias : Vec Ideal S1x1024 .f32)
    (o : ℕ) (hin : ∀ a, (![o, 0] : Fin 2 → ℕ) a + S512x1024.size a ≤ S2048x1024.size a) (ho : o + 512 ≤ 2048)
    (hXs : ∀ (n : Fin 2048) (c' : Fin 1024), Xs (ix2 n c') = Y n c')
    (x : (Rect.unit (s := S2048x1024) ![o, 0] S512x1024.size hin).shape.Idx) :
    tileProj (v.readCov [⟨Rect.whole S2048x1024, Xs⟩] (Rect.unit (s := S2048x1024) ![o, 0] S512x1024.size hin).toLoadRect) W bias x
      = (fun idx : S2048x1024.Idx => (∑ c' : Fin 1024, Y (idx 0) c' * W (ix2 c' (idx 1))) + bias (ix2 (0 : Fin 1) (idx 1)))
        ((Rect.unit (s := S2048x1024) ![o, 0] S512x1024.size hin).emb x) := by
  obtain ⟨j, d, rfl⟩ : ∃ (j : Fin 512) (d : Fin 1024), x = ix2 j d := ⟨x 0, x 1, eq_ix2 x⟩
  rw [fill_tile v Xs W bias o hin ho j d, fill_emb o hin ho j d]
  show _ = (∑ c' : Fin 1024, Y (⟨o + j.val, by omega⟩ : Fin 2048) c' * W (ix2 c' d)) + bias (ix2 (0 : Fin 1) d)
  refine congrArg (· + bias (ix2 (0 : Fin 1) d)) ?_
  refine Finset.sum_congr rfl fun c' _ => ?_
  rw [hXs]

/-- A stored key tile: the source is the body's copy of batch b of the key input, whose contents read K. -/
theorem fill_piece1 (c : Dev nD) (fh : HbBuf0 (F := Ideal) c hbM0_0) (K : S4x2048x1024.Idx → EReal) (hK : ∀ idx, fh idx = K idx)
    (v : View sig .tc .vmem S2048x1024 .f32) (off : Fin 3 → ℕ)
    (hin3 : ∀ a, off a + S1x2048x1024.size a ≤ S4x2048x1024.size a)
    (hst : ∀ a, (Rect.unit (s := S4x2048x1024) off S1x2048x1024.size hin3).stride a = 1)
    (b : Fin 4) (h0 : off 0 = b.val) (h1 : off 1 = 0) (h2 : off 2 = 0)
    (W : Vec Ideal S1024x1024 .bf16) (bias : Vec Ideal S1x1024 .f32)
    (o : ℕ) (hin : ∀ a, (![o, 0] : Fin 2 → ℕ) a + S512x1024.size a ≤ S2048x1024.size a) (ho : o + 512 ≤ 2048)
    (x : (Rect.unit (s := S2048x1024) ![o, 0] S512x1024.size hin).shape.Idx) :
    tileProj (v.readCov [⟨Rect.whole S2048x1024,
          (ReadAs.same : ReadAs (Elt Ideal) S2048x1024 .f32 S2048x1024 .f32).apply
            (View.read (Elt Ideal) (((Memref.whole main_arg1).slice (Rect.unit (s := S4x2048x1024) off S1x2048x1024.size hin3) hst).squeeze S2048x1024
              squeezes_S1x2048x1024_S2048x1024).view fh)⟩]
        (Rect.unit (s := S2048x1024) ![o, 0] S512x1024.size hin).toLoadRect) W bias x
      = (fun idx : S2048x1024.Idx =>
          (∑ c' : Fin 1024, K (ix3 b (idx 0) c') * W (ix2 c' (idx 1))) + bias (ix2 (0 : Fin 1) (idx 1)))
        ((Rect.unit (s := S2048x1024) ![o, 0] S512x1024.size hin).emb x) :=
  fill_piece v _ (fun n c' => K (ix3 b n c')) W bias o hin ho
    (fun n c' => (fill_src1 c fh off hin3 hst b h0 h1 h2 n c').trans (hK _)) x

/-- A stored value tile: the source is the body's copy of batch b of the value input, whose contents read K. -/
theorem fill_piece2 (c : Dev nD) (fh : HbBuf0 (F := Ideal) c hbM0_1) (K : S4x2048x1024.Idx → EReal) (hK : ∀ idx, fh idx = K idx)
    (v : View sig .tc .vmem S2048x1024 .f32) (off : Fin 3 → ℕ)
    (hin3 : ∀ a, off a + S1x2048x1024.size a ≤ S4x2048x1024.size a)
    (hst : ∀ a, (Rect.unit (s := S4x2048x1024) off S1x2048x1024.size hin3).stride a = 1)
    (b : Fin 4) (h0 : off 0 = b.val) (h1 : off 1 = 0) (h2 : off 2 = 0)
    (W : Vec Ideal S1024x1024 .bf16) (bias : Vec Ideal S1x1024 .f32)
    (o : ℕ) (hin : ∀ a, (![o, 0] : Fin 2 → ℕ) a + S512x1024.size a ≤ S2048x1024.size a) (ho : o + 512 ≤ 2048)
    (x : (Rect.unit (s := S2048x1024) ![o, 0] S512x1024.size hin).shape.Idx) :
    tileProj (v.readCov [⟨Rect.whole S2048x1024,
          (ReadAs.same : ReadAs (Elt Ideal) S2048x1024 .f32 S2048x1024 .f32).apply
            (View.read (Elt Ideal) (((Memref.whole main_arg2).slice (Rect.unit (s := S4x2048x1024) off S1x2048x1024.size hin3) hst).squeeze S2048x1024
              squeezes_S1x2048x1024_S2048x1024).view fh)⟩]
        (Rect.unit (s := S2048x1024) ![o, 0] S512x1024.size hin).toLoadRect) W bias x
      = (fun idx : S2048x1024.Idx =>
          (∑ c' : Fin 1024, K (ix3 b (idx 0) c') * W (ix2 c' (idx 1))) + bias (ix2 (0 : Fin 1) (idx 1)))
        ((Rect.unit (s := S2048x1024) ![o, 0] S512x1024.size hin).emb x) :=
  fill_piece v _ (fun n c' => K (ix3 b n c')) W bias o hin ho
    (fun n c' => (fill_src2 c fh off hin3 hst b h0 h1 h2 n c').trans (hK _)) x

/-- The grid coordinate as the kernel's 32-bit word, read back. -/
theorem fill_word (i : grid0.Coords) : (BitVec.ofNat 32 (i 0).val).toNat = (i 0).val := by
  have h : (i 0).val < 4 := (i 0).isLt
  rw [BitVec.toNat_ofNat]
  exact Nat.mod_eq_of_lt (by omega)

/-! ## The two scratch arrays after a batch's first query tile -/

/-- THE KEY SCRATCH: after the first query tile of batch i 0 it holds, at row n and column d, the dense projection of row n of that batch of the key input (whose contents read K) by the weights x3 and bias x4. -/
theorem fill_keys (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : cond0_0 i)
    (x0 : Vec Ideal S1x256x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (fh0 : HbBuf0 (F := Ideal) c hbM0_0) (fh1 : HbBuf0 (F := Ideal) c hbM0_1)
    (K : S4x2048x1024.Idx → EReal) (hK : ∀ idx, fh0 idx = K idx) (n : Fin 2048) (d : Fin 1024) :
    sout0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1 (ix2 n d)
      = (∑ c' : Fin 1024, K (ix3 (i 0) n c') * x3 (ix2 c' d)) + x4 (ix2 (0 : Fin 1) d) := by
  unfold sout0_A_2
  rw [View.read_writes_eq_canon _ _ _ (scover0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1)]
  refine View.canon_apply_of_pieces
    (fun idx : S2048x1024.Idx => (∑ c' : Fin 1024, K (ix3 (i 0) (idx 0) c') * x3 (ix2 c' (idx 1))) + x4 (ix2 (0 : Fin 1) (idx 1)))
    _ ?_ (ix2 n d) (scover0_A_2 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1 (ix2 n d))
  unfold kernelRun0_A; dsimp only; sl_unfold_words
  have hW : View.readAt (Elt Ideal) arg7.view (Rect.unit ![0, 0] S1024x1024.size inb_S1024x1024_S1024x1024_0_0).toLoadRect (harg7.unread x3) = x3 := by
    rw [View.readAt_eq_ld, harg7.read_unread, View.ld_unit_zero fill_hz2]
  have hb : View.readAt (Elt Ideal) arg8.view (Rect.unit ![0, 0] S1x1024.size inb_S1x1024_S1x1024_0_0).toLoadRect (harg8.unread x4) = x4 := by
    rw [View.readAt_eq_ld, harg8.read_unread, View.ld_unit_zero fill_hz2]
  rw [hW, hb]
  refine List.forall_mem_cons.2 ⟨?_, List.forall_mem_cons.2 ⟨?_, List.forall_mem_cons.2 ⟨?_, List.forall_mem_cons.2 ⟨?_, fun p hp => absurd hp List.not_mem_nil⟩⟩⟩⟩
  · intro x
    exact fill_piece1 c fh0 K hK arg12.view _ _ _ (i 0) (fill_word i) rfl rfl x3 x4 1536 _ (by norm_num) x
  · intro x
    exact fill_piece1 c fh0 K hK arg12.view _ _ _ (i 0) (fill_word i) rfl rfl x3 x4 1024 _ (by norm_num) x
  · intro x
    exact fill_piece1 c fh0 K hK arg12.view _ _ _ (i 0) (fill_word i) rfl rfl x3 x4 512 _ (by norm_num) x
  · intro x
    exact fill_piece1 c fh0 K hK arg12.view _ _ _ (i 0) (fill_word i) rfl rfl x3 x4 0 _ (by norm_num) x

/-- THE VALUE SCRATCH: the same for the value input (whose contents read K), the weights x5 and bias x6. -/
theorem fill_values (c : Dev nD) (i : grid0.Coords) (arg2 : Memref sig .tc .vmem S1x256x1024 .f32) (harg2 : arg2.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x256x1024 .f32) (harg11 : arg11.IsWhole) (arg12 : Memref sig .tc .vmem S2048x1024 .f32) (harg12 : arg12.IsWhole) (arg13 : Memref sig .tc .vmem S2048x1024 .f32) (harg13 : arg13.IsWhole) (arg14 : Memref sig .tc .vmem S2048x1024 .bf16) (harg14 : arg14.IsWhole) (arg15 : Memref sig .tc .vmem S2048x1024 .bf16) (harg15 : arg15.IsWhole) (hc0 : cond0_0 i)
    (x0 : Vec Ideal S1x256x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (fh0 : HbBuf0 (F := Ideal) c hbM0_0) (fh1 : HbBuf0 (F := Ideal) c hbM0_1)
    (K : S4x2048x1024.Idx → EReal) (hK : ∀ idx, fh1 idx = K idx) (n : Fin 2048) (d : Fin 1024) :
    sout0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1 (ix2 n d)
      = (∑ c' : Fin 1024, K (ix3 (i 0) n c') * x5 (ix2 c' d)) + x6 (ix2 (0 : Fin 1) d) := by
  unfold sout0_A_3
  rw [View.read_writes_eq_canon _ _ _ (scover0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1)]
  refine View.canon_apply_of_pieces
    (fun idx : S2048x1024.Idx => (∑ c' : Fin 1024, K (ix3 (i 0) (idx 0) c') * x5 (ix2 c' (idx 1))) + x6 (ix2 (0 : Fin 1) (idx 1)))
    _ ?_ (ix2 n d) (scover0_A_3 c i arg2 harg2 arg5 harg5 arg6 harg6 arg7 harg7 arg8 harg8 arg9 harg9 arg10 harg10 arg11 harg11 arg12 harg12 arg13 harg13 arg14 harg14 arg15 harg15 hc0 x0 x1 x2 x3 x4 x5 x6 fh0 fh1 (ix2 n d))
  unfold kernelRun0_A; dsimp only; sl_unfold_words
  have hW : View.readAt (Elt Ideal) arg9.view (Rect.unit ![0, 0] S1024x1024.size inb_S1024x1024_S1024x1024_0_0).toLoadRect (harg9.unread x5) = x5 := by
    rw [View.readAt_eq_ld, harg9.read_unread, View.ld_unit_zero fill_hz2]
  have hb : View.readAt (Elt Ideal) arg10.view (Rect.unit ![0, 0] S1x1024.size inb_S1x1024_S1x1024_0_0).toLoadRect (harg10.unread x6) = x6 := by
    rw [View.readAt_eq_ld, harg10.read_unread, View.ld_unit_zero fill_hz2]
  rw [hW, hb]
  refine List.forall_mem_cons.2 ⟨?_, List.forall_mem_cons.2 ⟨?_, List.forall_mem_cons.2 ⟨?_, List.forall_mem_cons.2 ⟨?_, fun p hp => absurd hp List.not_mem_nil⟩⟩⟩⟩
  · intro x
    exact fill_piece2 c fh1 K hK arg13.view _ _ _ (i 0) (fill_word i) rfl rfl x5 x6 1536 _ (by norm_num) x
  · intro x
    exact fill_piece2 c fh1 K hK arg13.view _ _ _ (i 0) (fill_word i) rfl rfl x5 x6 1024 _ (by norm_num) x
  · intro x
    exact fill_piece2 c fh1 K hK arg13.view _ _ _ (i 0) (fill_word i) rfl rfl x5 x6 512 _ (by norm_num) x
  · intro x
    exact fill_piece2 c fh1 K hK arg13.view _ _ _ (i 0) (fill_word i) rfl rfl x5 x6 0 _ (by norm_num) x

end Cert.KernelIdeal.Gen
end
-- ==== Proof.KernelPoint.lean ====
/-
  The kernel's result array, block by block.

  The grid has 32 points: 4 batches of 8 query tiles of 256 rows, visited batch by batch. The key scratch and the value
  scratch are carried from point to point. At a batch's first tile the point fills them with the dense projections
  k·Wk + bk and v·Wv + bv of the whole batch (2048 rows each); at the batch's other tiles nothing is stored into them.
  So after EVERY point of a batch they hold that batch's projected keys and values — by induction along the points.

  What a point writes back is the attention block of its query tile: the projected, scaled queries of its 256 rows
  against the four 512-row tiles of the two scratch arrays, an online softmax over the four tiles, and the quotient.
  With real inputs that is the specification's attention at the rows 256·(t mod 8) … of batch t / 8 (BlockBridge), which
  is the block the output window places there; the 32 blocks tile the [4, 2048, 1024] array, so the array after the run
  is the specification's, entry by entry.
-/
import proofs.«118870_j18597208392097_2_alg».proof.Proof.Gen.KernelIdeal.Value
import proofs.«118870_j18597208392097_2_alg».proof.Proof.AttentionPieces
import proofs.«118870_j18597208392097_2_alg».proof.Proof.BlockBridge
import proofs.«118870_j18597208392097_2_alg».proof.Proof.KernelArray
import proofs.«118870_j18597208392097_2_alg».proof.Proof.ScratchFill
set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.AttentionSpec Cert.KernelIdeal.Block

variable (m : (ℓ : Loc nD τ sig) → Buf (Elt Ideal) ℓ) (ρ : Dev nD → PrngReg)

/-- The batch a grid point belongs to: the 32 points are 4 batches of 8 query tiles. -/
def batch (t : Fin cfg0.N) : Fin 4 :=
  ⟨t.val / 8, by have h := t.isLt; have hN : cfg0.N = 32 := N_0; omega⟩

/-- A tile of a 2048-row array at coordinates: row j of the tile at offset o is row o + j of the array. -/
theorem tileAt_apply (X : S2048x1024.Idx → Elt Ideal .bf16) (o : ℕ)
    (h : ∀ a, (![o, 0] : Fin 2 → ℕ) a + S512x1024.size a ≤ S2048x1024.size a) (ho : o + 512 ≤ 2048)
    (j : Fin 512) (d : Fin 1024) :
    tileAt X o h (ix2 j d) = X (ix2 (row (o + j.val)) d) := by
  show X _ = X _
  refine congrArg X (funext fun a => Fin.ext ?_)
  match a with
  | ⟨0, _⟩ =>
    show o + 1 * j.val = (row (o + j.val)).val
    rw [row_val (by have := j.isLt; omega)]; omega
  | ⟨1, _⟩ =>
    show 0 + 1 * d.val = d.val
    omega

/-- The state after a point whose position is written two ways. -/
theorem outsAt0_pos (c : Dev nD) {n n' : ℕ} (e : n = n') (h : n < cfg0.N) (h' : n' < cfg0.N) :
    outsAt0 m c n h = outsAt0 m c n' h' := by
  subst e; rfl

/-- At a point that is not a batch's first query tile the key scratch is what the point before left. -/
theorem keys_carry (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  rw [outsAt0_B m c t h0]
  rfl

/-- … and so is the value scratch. -/
theorem values_carry (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- The dense projection x·W + bias of batch b, row r, at column d, on the extended reals. -/
def dense (x : S4x2048x1024.Idx → EReal) (W : S1024x1024.Idx → EReal) (bias : S1024.Idx → EReal)
    (b : Fin 4) (r : Fin 2048) (d : Fin 1024) : EReal :=
  (∑ c' : Fin 1024, x (ix3 b r c') * W (ix2 c' d)) + bias (ix1 d)

/-- The first grid coordinate of a point is its batch. -/
theorem coords_batch : ∀ t : Fin cfg0.N, ((grid0.coords t) 0).val = t.val / 8 :=
  (by decide +kernel : ∀ t : Fin grid0.N, ((grid0.coords t) 0).val = t.val / 8)

/-- At a batch's first query tile the key scratch is filled with the dense projection of the batch's keys. -/
theorem keys_fill (c : Dev nD) (t : Fin cfg0.N) (h0 : t.val % 8 = 0) (r : Fin 2048) (d : Fin 1024) :
    (outsAt0 m c t.val t.isLt).2.1 (ix2 r d) = dense (m ((c : Thread nD τ).loc main_arg1)) (m ((c : Thread nD τ).loc main_arg5)) (m ((c : Thread nD τ).loc main_arg6)) (batch t) r d := by
  rw [outsAt0_A m c t h0]
  dsimp only
  rw [fill_keys c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (V m c main_arg1) (V m c main_arg2) (m ((c : Thread nD τ).loc main_arg1)) (fun idx => congrFun (KArray.V_arg1 m c) idx) r d]
  unfold dense
  rw [KArray.iblk4_apply m c t d]
  have hi : ∀ c' : Fin 1024, (ix3 ((grid0.coords t) 0) r c' : S4x2048x1024.Idx) = ix3 (batch t) r c' := fun c' =>
    funext fun ax => Fin.ext (by
      match ax with
      | ⟨0, _⟩ => exact coords_batch t
      | ⟨1, _⟩ => rfl
      | ⟨2, _⟩ => rfl)
  simp only [KArray.iblk3_apply m c t, hi]

/-- At a batch's first query tile the value scratch is filled with the dense projection of the batch's values. -/
theorem values_fill (c : Dev nD) (t : Fin cfg0.N) (h0 : t.val % 8 = 0) (r : Fin 2048) (d : Fin 1024) :
    (outsAt0 m c t.val t.isLt).2.2 (ix2 r d) = dense (m ((c : Thread nD τ).loc main_arg2)) (m ((c : Thread nD τ).loc main_arg7)) (m ((c : Thread nD τ).loc main_arg8)) (batch t) r d := by
  rw [outsAt0_A m c t h0]
  dsimp only
  rw [fill_values c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (V m c main_arg1) (V m c main_arg2) (m ((c : Thread nD τ).loc main_arg2)) (fun idx => congrFun (KArray.V_arg2 m c) idx) r d]
  unfold dense
  rw [KArray.iblk6_apply m c t d]
  have hi : ∀ c' : Fin 1024, (ix3 ((grid0.coords t) 0) r c' : S4x2048x1024.Idx) = ix3 (batch t) r c' := fun c' =>
    funext fun ax => Fin.ext (by
      match ax with
      | ⟨0, _⟩ => exact coords_batch t
      | ⟨1, _⟩ => rfl
      | ⟨2, _⟩ => rfl)
  simp only [KArray.iblk5_apply m c t, hi]

/-- After every point the key scratch holds the dense projection of the point's batch of keys: filled at the batch's first
    query tile, carried unchanged over the other seven. -/
theorem keysAt (c : Dev nD) : ∀ (n : ℕ) (hn : n < cfg0.N) (r : Fin 2048) (d : Fin 1024),
    (outsAt0 m c n hn).2.1 (ix2 r d) = dense (m ((c : Thread nD τ).loc main_arg1)) (m ((c : Thread nD τ).loc main_arg5)) (m ((c : Thread nD τ).loc main_arg6)) (batch ⟨n, hn⟩) r d := by
  intro n
  induction n with
  | zero => intro hn r d; exact keys_fill m c ⟨0, hn⟩ (Nat.zero_mod 8) r d
  | succ k ih =>
    intro hn r d
    by_cases h0 : (k + 1) % 8 = 0
    · exact keys_fill m c ⟨k + 1, hn⟩ h0 r d
    · have hk : k < cfg0.N := Nat.lt_of_succ_lt hn
      have hc : (outsAt0 m c (k + 1) hn).2.1 = (outsAt0 m c k hk).2.1 :=
        (keys_carry m c ⟨k + 1, hn⟩ h0).trans (congrArg (fun z => z.2.1) (outsAt0_pos m c (Nat.add_sub_cancel k 1) _ hk))
      have hb : batch ⟨k, hk⟩ = batch ⟨k + 1, hn⟩ := Fin.ext (by show k / 8 = (k + 1) / 8; omega)
      rw [hc, ih hk r d, hb]

/-- After every point the value scratch holds the dense projection of the point's batch of values: filled at the batch's first
    query tile, carried unchanged over the other seven. -/
theorem valuesAt (c : Dev nD) : ∀ (n : ℕ) (hn : n < cfg0.N) (r : Fin 2048) (d : Fin 1024),
    (outsAt0 m c n hn).2.2 (ix2 r d) = dense (m ((c : Thread nD τ).loc main_arg2)) (m ((c : Thread nD τ).loc main_arg7)) (m ((c : Thread nD τ).loc main_arg8)) (batch ⟨n, hn⟩) r d := by
  intro n
  induction n with
  | zero => intro hn r d; exact values_fill m c ⟨0, hn⟩ (Nat.zero_mod 8) r d
  | succ k ih =>
    intro hn r d
    by_cases h0 : (k + 1) % 8 = 0
    · exact values_fill m c ⟨k + 1, hn⟩ h0 r d
    · have hk : k < cfg0.N := Nat.lt_of_succ_lt hn
      have hc : (outsAt0 m c (k + 1) hn).2.2 = (outsAt0 m c k hk).2.2 :=
        (values_carry m c ⟨k + 1, hn⟩ h0).trans (congrArg (fun z => z.2.2) (outsAt0_pos m c (Nat.add_sub_cancel k 1) _ hk))
      have hb : batch ⟨k, hk⟩ = batch ⟨k + 1, hn⟩ := Fin.ext (by show k / 8 = (k + 1) / 8; omega)
      rw [hc, ih hk r d, hb]

/-- WHAT A POINT WRITES BACK, in both cases: the block of its query tile over the four tiles of the key scratch and of
    the value scratch as the point leaves them. -/
theorem flushed_tiles (c : Dev nD) (t : Fin cfg0.N) :
    (dats m 0 c).flushed 7 t = (cfg0.win 7).cut (grid0.coords t)
      (vout (vstep (qProj (iblk m c 0 t) (iblk m c 1 t) (iblk m c 2 t)) (vstep (qProj (iblk m c 0 t) (iblk m c 1 t) (iblk m c 2 t)) (vstep (qProj (iblk m c 0 t) (iblk m c 1 t) (iblk m c 2 t)) (vstep (qProj (iblk m c 0 t) (iblk m c 1 t) (iblk m c 2 t)) vinit
        (tileAt (outsAt0 m c t.val t.isLt).2.1 0 (tin 0 (by omega))) (tileAt (outsAt0 m c t.val t.isLt).2.2 0 (tin 0 (by omega))))
        (tileAt (outsAt0 m c t.val t.isLt).2.1 512 (tin 512 (by omega))) (tileAt (outsAt0 m c t.val t.isLt).2.2 512 (tin 512 (by omega))))
        (tileAt (outsAt0 m c t.val t.isLt).2.1 1024 (tin 1024 (by omega))) (tileAt (outsAt0 m c t.val t.isLt).2.2 1024 (tin 1024 (by omega))))
        (tileAt (outsAt0 m c t.val t.isLt).2.1 1536 (tin 1536 (by omega))) (tileAt (outsAt0 m c t.val t.isLt).2.2 1536 (tin 1536 (by omega))))) := by
  by_cases h0 : t.val % 8 = 0
  · rw [Value.flushed7_A m c t h0, out0_A_7_eq, outsAt0_A m c t h0]
  · rw [Value.flushed7_B m c t h0, out0_B_7_eq, keys_carry m c t h0, values_carry m c t h0]

/-- The result array: attention of the launch memory's nine arguments. -/
def result (c : Dev nD) : S4x2048x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Two arrays over a 1 × 256 × 1024 block that agree at every (0, p, e) are equal. -/
theorem ext_block {f g : S1x256x1024.Idx → EReal} (h : ∀ (p : Fin 256) (e : Fin 1024), f (ix3 (0 : Fin 1) p e) = g (ix3 (0 : Fin 1) p e)) :
    f = g := by
  funext j
  obtain ⟨u, p, e, rfl⟩ : ∃ (u : Fin 1) (p : Fin 256) (e : Fin 1024), j = ix3 u p e := ⟨j 0, j 1, j 2, eq_ix3 j⟩
  obtain rfl : u = 0 := Subsingleton.elim _ _
  exact h p e

/-- WHAT POINT t WRITES BACK IS BLOCK t OF THE RESULT, when the nine arguments hold real numbers. -/
theorem flushed_eq (c : Dev nD)
    (h0 : IsReal (m ((c : Thread nD τ).loc main_arg0))) (h1 : IsReal (m ((c : Thread nD τ).loc main_arg1))) (h2 : IsReal (m ((c : Thread nD τ).loc main_arg2))) (h3 : IsReal (m ((c : Thread nD τ).loc main_arg3))) (h4 : IsReal (m ((c : Thread nD τ).loc main_arg4)))
    (h5 : IsReal (m ((c : Thread nD τ).loc main_arg5))) (h6 : IsReal (m ((c : Thread nD τ).loc main_arg6))) (h7 : IsReal (m ((c : Thread nD τ).loc main_arg7))) (h8 : IsReal (m ((c : Thread nD τ).loc main_arg8))) (t : Fin cfg0.N) :
    (dats m 0 c).flushed 7 t = ((cfg0.win 7).blk t).view.read (Elt Ideal) (result m c) := by
  rw [flushed_tiles m c t]
  refine ext_block fun p e => ?_
  refine Eq.trans ?_ (KArray.read_blk7 (result m c) t p e).symm
  have hN : t.val < 32 := lt_of_lt_of_eq t.isLt N_0
  exact block_eq_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    h0 h1 h2 h3 h4 h5 h6 h7 h8 (batch t) (256 * (t.val % 8))
    (iblk m c 0 t) (iblk m c 1 t) (iblk m c 2 t)
    (tileAt (outsAt0 m c t.val t.isLt).2.1 0 (tin 0 (by omega))) (tileAt (outsAt0 m c t.val t.isLt).2.1 512 (tin 512 (by omega))) (tileAt (outsAt0 m c t.val t.isLt).2.1 1024 (tin 1024 (by omega))) (tileAt (outsAt0 m c t.val t.isLt).2.1 1536 (tin 1536 (by omega)))
    (tileAt (outsAt0 m c t.val t.isLt).2.2 0 (tin 0 (by omega))) (tileAt (outsAt0 m c t.val t.isLt).2.2 512 (tin 512 (by omega))) (tileAt (outsAt0 m c t.val t.isLt).2.2 1024 (tin 1024 (by omega))) (tileAt (outsAt0 m c t.val t.isLt).2.2 1536 (tin 1536 (by omega)))
    (fun p c' => KArray.iblk0_apply m c t p c')
    (fun a d => KArray.iblk1_apply m c t a d)
    (fun d => KArray.iblk2_apply m c t d)
    (fun j d => (tileAt_apply _ 0 _ (by omega) j d).trans (keysAt m c t.val t.isLt _ d))
    (fun j d => (tileAt_apply _ 512 _ (by omega) j d).trans (keysAt m c t.val t.isLt _ d))
    (fun j d => (tileAt_apply _ 1024 _ (by omega) j d).trans (keysAt m c t.val t.isLt _ d))
    (fun j d => (tileAt_apply _ 1536 _ (by omega) j d).trans (keysAt m c t.val t.isLt _ d))
    (fun j d => (tileAt_apply _ 0 _ (by omega) j d).trans (valuesAt m c t.val t.isLt _ d))
    (fun j d => (tileAt_apply _ 512 _ (by omega) j d).trans (valuesAt m c t.val t.isLt _ d))
    (fun j d => (tileAt_apply _ 1024 _ (by omega) j d).trans (valuesAt m c t.val t.isLt _ d))
    (fun j d => (tileAt_apply _ 1536 _ (by omega) j d).trans (valuesAt m c t.val t.isLt _ d))
    p e

/-- THE ARRAY after the run is the result. -/
theorem final (c : Dev nD)
    (h0 : IsReal (m ((c : Thread nD τ).loc main_arg0))) (h1 : IsReal (m ((c : Thread nD τ).loc main_arg1))) (h2 : IsReal (m ((c : Thread nD τ).loc main_arg2))) (h3 : IsReal (m ((c : Thread nD τ).loc main_arg3))) (h4 : IsReal (m ((c : Thread nD τ).loc main_arg4)))
    (h5 : IsReal (m ((c : Thread nD τ).loc main_arg5))) (h6 : IsReal (m ((c : Thread nD τ).loc main_arg6))) (h7 : IsReal (m ((c : Thread nD τ).loc main_arg7))) (h8 : IsReal (m ((c : Thread nD τ).loc main_arg8))) :
    (dats m 0 c).arrAt 7 cfg0.N = result m c :=
  KArray.final_of_flushed m c (result m c) (fun t => flushed_eq m c h0 h1 h2 h3 h4 h5 h6 h7 h8 t)

/-- THE RUN, READ: every weakly fair execution of the kernel's program ends with the result array at attention of the
    launch memory's arguments, and the arguments unchanged — when the nine arguments hold real numbers. -/
theorem run (hr : ∀ c : Dev nD, IsReal (m ((c : Thread nD τ).loc main_arg0)) ∧ IsReal (m ((c : Thread nD τ).loc main_arg1)) ∧ IsReal (m ((c : Thread nD τ).loc main_arg2)) ∧ IsReal (m ((c : Thread nD τ).loc main_arg3)) ∧ IsReal (m ((c : Thread nD τ).loc main_arg4)) ∧ IsReal (m ((c : Thread nD τ).loc main_arg5)) ∧ IsReal (m ((c : Thread nD τ).loc main_arg6)) ∧ IsReal (m ((c : Thread nD τ).loc main_arg7)) ∧ IsReal (m ((c : Thread nD τ).loc main_arg8))) :
    θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
      obtain ⟨r0, r1, r2, r3, r4, r5, r6, r7, r8⟩ := hr c
      exact ⟨(h c).1.trans (final m c r0 r1 r2 r3 r4 r5 r6 r7 r8), (h c).2⟩)
    (Value.run_blocks m ρ)

end Cert.KernelIdeal.KValue

end
-- ==== Proof.ReferenceValue.lean ====
/-
  The reference program computes single-head scaled dot-product attention: on inputs whose every entry is a real
  number, its result array is the function G of Proof/AttentionSpec.lean.

  The program is read one operation at a time at an index (the stages of Gen/ReferenceIdeal/Read.lean):
  · each of the three dense projections x·W + bias, a sum of products of real entries plus a real entry, is the real
    number proj x W bias b s e;
  · the scale 1 / √1024 is 1/32, because 1024 = 32 · 32;
  · the logit at (b, s, j) is the inner product of query row s and key row j of the projections, times 1/32: the score;
  · the row maximum at (b, s), the larger of −∞ and the running maximum from −∞ of the row's 2048 real logits, is some
    real number M, and nothing more about it is used;
  · the exponentials e^(z j − M) are real, their sum over the 2048 key rows is the positive real Σ_n e^(z n − M), and the
    quotient of the two is a real quotient;
  · the last contraction is Σ_n (e^(z n − M) / Σ_m e^(z m − M)) · h n with h the projected values' column e, which is
    (Σ_n e^(z n − M) · h n) / (Σ_n e^(z n − M)); a quotient of that form does not depend on the shift M, so it is the
    unshifted quotient that defines G.
-/
import proofs.«118870_j18597208392097_2_alg».proof.Proof.Gen.ReferenceIdeal.Read
import proofs.«118870_j18597208392097_2_alg».proof.Proof.AttentionSpec
import Idealize.ShloMosaic.Lib.ValueIdx
import Idealize.ShloMosaic.PureOps.Ideal.Laws

noncomputable section

namespace Cert.ReferenceIdeal.RefValue

open Cert.ReferenceIdeal Cert.ReferenceIdeal.Read Cert.AttentionSpec Idealize.ShloMosaic Idealize.ShloMosaic.ValueIdx

/-! ## Constants -/

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The word 0xFF800000 denotes −∞. -/
theorem ofBits_neg_inf : Ideal.ofBits .f32 0xFF800000#32 = (⊥ : EReal) := by
  simp [Ideal.ofBits, Ideal.ieee]

/-- √1024 = 32. -/
theorem sqrt_1024 : Real.sqrt 1024 = 32 := by
  rw [show (1024 : ℝ) = 32 * 32 by norm_num]
  exact Real.sqrt_mul_self (by norm_num)

/-- A sum over the 2048 rows as a sum over the range of row numbers. -/
theorem sum_rows (g : ℕ → ℝ) : ∑ k : Fin 2048, g k.val = ∑ n ∈ Finset.Ico 0 2048, g n := by
  rw [← Finset.sum_range, Finset.range_eq_Ico]

/-! ## The three dense projections -/

/-- x·W + bias on the extended reals, of real arrays, is the real projection. -/
theorem dense_coe (x : Act.Idx → EReal) (W : Wt.Idx → EReal) (bias : Bias.Idx → EReal)
    (hx : IsReal x) (hW : IsReal W) (hb : IsReal bias) (b : Fin 4) (s : Fin 2048) (e : Fin 1024) :
    (∑ k : Fin 1024, x (ix3 b s k) * W (ix2 k e)) + bias (ix1 e) = ((proj x W bias b s e : ℝ) : EReal) := by
  unfold proj
  rw [EReal.coe_add, Cert.Pool.coe_sum]
  refine congrArg₂ (· + ·) (Finset.sum_congr rfl fun k _ => ?_) (hb _)
  exact (congrArg₂ (· * ·) (hx _) (hW _)).trans (EReal.coe_mul _ _).symm

/-- The query projection (operations 0 to 3) at (b, s, e). -/
theorem qproj_apply (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (h0 : IsReal x0) (h3 : IsReal x3) (h4 : IsReal x4)
    (b : Fin 4) (s : Fin 2048) (e : Fin 1024) :
    val_main_v3 (F := Ideal) x0 x3 x4 (ix3 b s e) = ((proj x0 x3 x4 b s e : ℝ) : EReal) := by
  rw [val_main_v3_apply, val_main_v0_apply, val_main_v2_apply, val_main_v1_apply, Ideal.addf_def]
  refine Eq.trans ?_ (dense_coe x0 x3 x4 h0 h3 h4 b s e)
  refine congrArg₂ (· + ·) (Finset.sum_congr rfl fun k _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The key projection (operations 4 to 7) at (b, s, e). -/
theorem kproj_apply (x1 : (⟨S4x2048x1024, .f32⟩ : BufTy).Contents (Elt Ideal)) (x5 : (⟨S1024x1024, .f32⟩ : BufTy).Contents (Elt Ideal))
    (x6 : (⟨S1024, .f32⟩ : BufTy).Contents (Elt Ideal)) (h1 : IsReal x1) (h5 : IsReal x5) (h6 : IsReal x6)
    (b : Fin 4) (s : Fin 2048) (e : Fin 1024) :
    val_main_v7 (F := Ideal) x1 x5 x6 (ix3 b s e) = ((proj x1 x5 x6 b s e : ℝ) : EReal) := by
  rw [val_main_v7_apply, val_main_v4_apply, val_main_v6_apply, val_main_v5_apply, Ideal.addf_def]
  refine Eq.trans ?_ (dense_coe x1 x5 x6 h1 h5 h6 b s e)
  refine congrArg₂ (· + ·) (Finset.sum_congr rfl fun k _ => congrArg₂ (· * ·) (congrArg x1 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value projection (operations 8 to 11) at (b, s, e). -/
theorem vproj_apply (x2 : (⟨S4x2048x1024, .f32⟩ : BufTy).Contents (Elt Ideal)) (x7 : (⟨S1024x1024, .f32⟩ : BufTy).Contents (Elt Ideal))
    (x8 : (⟨S1024, .f32⟩ : BufTy).Contents (Elt Ideal)) (h2 : IsReal x2) (h7 : IsReal x7) (h8 : IsReal x8)
    (b : Fin 4) (s : Fin 2048) (e : Fin 1024) :
    val_main_v11 (F := Ideal) x2 x7 x8 (ix3 b s e) = ((proj x2 x7 x8 b s e : ℝ) : EReal) := by
  rw [val_main_v11_apply, val_main_v8_apply, val_main_v10_apply, val_main_v9_apply, Ideal.addf_def]
  refine Eq.trans ?_ (dense_coe x2 x7 x8 h2 h7 h8 b s e)
  refine congrArg₂ (· + ·) (Finset.sum_congr rfl fun k _ => congrArg₂ (· * ·) (congrArg x2 ?_) (congrArg x7 ?_)) (congrArg x8 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-! ## The scale and the logits -/

/-- The scale 1 / √1024 (operations cst, 12, cst_0, 13) is 1/32. -/
theorem scale_apply (i : S_.Idx) : val_main_v13 (F := Ideal) i = (((1 : ℝ) / 32 : ℝ) : EReal) := by
  rw [val_main_v13_apply, val_main_v12_apply, val_main_cst_apply, val_main_cst_0_apply, Ideal.hostDivf_def,
    Ideal.hostUnary_sqrt_def, Ideal.ofBits_def, Ideal.ofBits_def, ofBits_1024, ofBits_one, Ideal.sqrt_coe,
    if_neg (by norm_num), sqrt_1024, Cert.Pool.div_coe_coe 1 (by norm_num)]

/-- The logits (operations 14 to 16) at (b, s, j): the scaled score of query row s against key row j. -/
theorem logits_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : IsReal x0) (h1 : IsReal x1) (h3 : IsReal x3) (h4 : IsReal x4) (h5 : IsReal x5) (h6 : IsReal x6)
    (b : Fin 4) (s j : Fin 2048) :
    val_main_v16 (F := Ideal) x0 x1 x3 x4 x5 x6 (ix3 b s j)
      = ((score (proj x0 x3 x4 b) (proj x1 x5 x6 b) s j.val : ℝ) : EReal) := by
  rw [val_main_v16_apply, val_main_v14_apply, val_main_v15_apply, scale_apply, Ideal.mulf_def]
  unfold score
  rw [EReal.coe_mul, Cert.Pool.coe_sum]
  refine congrArg (· * _) (Finset.sum_congr rfl fun k _ => ?_)
  rw [EReal.coe_mul, ← qproj_apply x0 x3 x4 h0 h3 h4 b s k, ← kproj_apply x1 x5 x6 h1 h5 h6 b (row j.val) k]
  refine congrArg₂ (· * ·) (congrArg _ ?_) (congrArg _ ?_)
  · exact funext fun a => Fin.ext (by match a with | ⟨0, _⟩ => rfl | ⟨1, _⟩ => rfl | ⟨2, _⟩ => rfl)
  · rw [row_eq j.isLt]
    exact funext fun a => Fin.ext (by match a with | ⟨0, _⟩ => rfl | ⟨1, _⟩ => rfl | ⟨2, _⟩ => rfl)

/-! ## The row maximum is a real number -/

/-- The shifted maximum (operations cst_1, 17, cst_2, 18, 19) at (b, s) is a real number: it is the running maximum from −∞
    of the 2048 real logits of the row. -/
theorem rowmax_real (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : IsReal x0) (h1 : IsReal x1) (h3 : IsReal x3) (h4 : IsReal x4) (h5 : IsReal x5) (h6 : IsReal x6)
    (b : Fin 4) (s : Fin 2048) :
    ∃ M : ℝ, val_main_v19 (F := Ideal) x0 x1 x3 x4 x5 x6 (ix2 b s) = (M : EReal) := by
  have hR : S4x2048x2048.Reduces [2] S4x2048 := by decide
  obtain ⟨M, hM⟩ := Cert.Pool.exists_real_fold_max (Finset.univ : Finset (Fin 2048)) Finset.univ_nonempty
    (fun k => score (proj x0 x3 x4 b) (proj x1 x5 x6 b) s k.val)
  refine ⟨M, ?_⟩
  rw [val_main_v19_apply, val_main_v18_apply, val_main_cst_2_apply, Ideal.maximumf_def, Ideal.ofBits_def, ofBits_neg_inf,
    max_bot_left]
  unfold val_main_v17
  rw [Host.reduce_eq_fold_single FloatOps.maximumf _ _ _ hR, val_main_cst_1_apply, Ideal.ofBits_def, ofBits_neg_inf]
  have hf : (val_main_v16 (F := Ideal) x0 x1 x3 x4 x5 x6 ∘ hR.lift (ix2 b s))
      = fun k : Fin 2048 => ((score (proj x0 x3 x4 b) (proj x1 x5 x6 b) s k.val : ℝ) : EReal) := by
    funext k
    refine Eq.trans (congrArg (val_main_v16 (F := Ideal) x0 x1 x3 x4 x5 x6) ?_)
      (logits_apply x0 x1 x3 x4 x5 x6 h0 h1 h3 h4 h5 h6 b s k)
    exact funext fun a => Fin.ext (by match a with | ⟨0, _⟩ => rfl | ⟨1, _⟩ => rfl | ⟨2, _⟩ => rfl)
  rw [hf]
  exact hM

/-! ## The softmax weights -/

/-- The shifted exponentials (operations 20 to 23) at (b, s, j), for M the row's maximum. -/
theorem exps_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : IsReal x0) (h1 : IsReal x1) (h3 : IsReal x3) (h4 : IsReal x4) (h5 : IsReal x5) (h6 : IsReal x6)
    (b : Fin 4) (s j : Fin 2048) (M : ℝ) (hM : val_main_v19 (F := Ideal) x0 x1 x3 x4 x5 x6 (ix2 b s) = (M : EReal)) :
    val_main_v23 (F := Ideal) x0 x1 x3 x4 x5 x6 (ix3 b s j) = ((Real.exp (score (proj x0 x3 x4 b) (proj x1 x5 x6 b) s j.val - M) : ℝ) : EReal) := by
  have hi : idx_main_v20 (idx_main_v21 (ix3 b s j)) = ix2 b s :=
    funext fun a => Fin.ext (by match a with | ⟨0, _⟩ => rfl | ⟨1, _⟩ => rfl)
  rw [val_main_v23_apply, val_main_v22_apply, val_main_v21_apply, val_main_v20_apply, Ideal.hostUnary_exp_def, Ideal.subf_def,
    logits_apply x0 x1 x3 x4 x5 x6 h0 h1 h3 h4 h5 h6 b s j, hi, hM, ← EReal.coe_sub, Ideal.exp_coe]

/-- The normalizer (operations cst_3, 24 to 26) at (b, s, j): the sum of the row's shifted exponentials. -/
theorem denom_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : IsReal x0) (h1 : IsReal x1) (h3 : IsReal x3) (h4 : IsReal x4) (h5 : IsReal x5) (h6 : IsReal x6)
    (b : Fin 4) (s j : Fin 2048) (M : ℝ) (hM : val_main_v19 (F := Ideal) x0 x1 x3 x4 x5 x6 (ix2 b s) = (M : EReal)) :
    val_main_v26 (F := Ideal) x0 x1 x3 x4 x5 x6 (ix3 b s j) = ((Cert.Pool.lsum (score (proj x0 x3 x4 b) (proj x1 x5 x6 b) s) 0 2048 M : ℝ) : EReal) := by
  have hi : idx_main_v25 (idx_main_v26 (ix3 b s j)) = ix2 b s :=
    funext fun a => Fin.ext (by match a with | ⟨0, _⟩ => rfl | ⟨1, _⟩ => rfl)
  rw [val_main_v26_apply, val_main_v25_apply, hi, val_main_v24_apply, val_main_cst_3_apply, Ideal.ofBits_def,
    Ideal.ofBits_zero_f32, zero_add]
  unfold Cert.Pool.lsum
  refine Eq.trans ?_ (congrArg (fun r : ℝ => (r : EReal)) (sum_rows fun n => Real.exp (score (proj x0 x3 x4 b) (proj x1 x5 x6 b) s n - M)))
  rw [Cert.Pool.coe_sum]
  refine Finset.sum_congr rfl fun k _ => ?_
  refine Eq.trans (congrArg _ ?_) (exps_apply x0 x1 x3 x4 x5 x6 h0 h1 h3 h4 h5 h6 b s k M hM)
  exact funext fun a => Fin.ext (by match a with | ⟨0, _⟩ => rfl | ⟨1, _⟩ => rfl | ⟨2, _⟩ => rfl)

/-- The softmax weights (operation 27) at (b, s, j). -/
theorem weights_apply (x0 x1 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : IsReal x0) (h1 : IsReal x1) (h3 : IsReal x3) (h4 : IsReal x4) (h5 : IsReal x5) (h6 : IsReal x6)
    (b : Fin 4) (s j : Fin 2048) (M : ℝ) (hM : val_main_v19 (F := Ideal) x0 x1 x3 x4 x5 x6 (ix2 b s) = (M : EReal)) :
    val_main_v27 (F := Ideal) x0 x1 x3 x4 x5 x6 (ix3 b s j)
      = ((Real.exp (score (proj x0 x3 x4 b) (proj x1 x5 x6 b) s j.val - M) / Cert.Pool.lsum (score (proj x0 x3 x4 b) (proj x1 x5 x6 b) s) 0 2048 M : ℝ) : EReal) := by
  rw [val_main_v27_apply, Ideal.hostDivf_def, exps_apply x0 x1 x3 x4 x5 x6 h0 h1 h3 h4 h5 h6 b s j M hM, denom_apply x0 x1 x3 x4 x5 x6 h0 h1 h3 h4 h5 h6 b s j M hM]
  exact Cert.Pool.div_coe_coe _ (Cert.Pool.lsum_pos _ (by norm_num) M).ne'

/-! ## The reference is G -/

/-- The reference program's result, on real inputs, is the attention function G. -/
theorem reference_eq_G (x0 x1 x2 : (⟨S4x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (h0 : Cert.AttentionSpec.IsReal x0) (h1 : IsReal x1) (h2 : IsReal x2) (h3 : IsReal x3) (h4 : IsReal x4) (h5 : IsReal x5)
    (h6 : IsReal x6) (h7 : IsReal x7) (h8 : IsReal x8) :
    Cert.ReferenceIdeal.Read.val_main_v28 x0 x1 x2 x3 x4 x5 x6 x7 x8 = Cert.AttentionSpec.G x0 x1 x2 x3 x4 x5 x6 x7 x8 := by
  funext i
  obtain ⟨b, s, e, rfl⟩ : ∃ (b : Fin 4) (s : Fin 2048) (e : Fin 1024), i = ix3 b s e := ⟨i 0, i 1, i 2, eq_ix3 i⟩
  obtain ⟨M, hM⟩ := rowmax_real x0 x1 x3 x4 x5 x6 h0 h1 h3 h4 h5 h6 b s
  have key : attn x0 x1 x2 x3 x4 x5 x6 x7 x8 b s e
      = ∑ k : Fin 2048, Real.exp (score (proj x0 x3 x4 b) (proj x1 x5 x6 b) s k.val - M) / Cert.Pool.lsum (score (proj x0 x3 x4 b) (proj x1 x5 x6 b) s) 0 2048 M * proj x2 x7 x8 b (row k.val) e := by
    unfold attn
    rw [Cert.Pool.pool_shift _ _ 0 2048 0 M, ← Cert.Pool.pool_normalized]
    exact (sum_rows fun n => Real.exp (score (proj x0 x3 x4 b) (proj x1 x5 x6 b) s n - M) / Cert.Pool.lsum (score (proj x0 x3 x4 b) (proj x1 x5 x6 b) s) 0 2048 M * proj x2 x7 x8 b (row n) e).symm
  rw [G_apply, key, Cert.Pool.coe_sum, val_main_v28_apply]
  refine Finset.sum_congr rfl fun k _ => ?_
  rw [EReal.coe_mul, ← weights_apply x0 x1 x3 x4 x5 x6 h0 h1 h3 h4 h5 h6 b s k M hM, ← vproj_apply x2 x7 x8 h2 h7 h8 b (row k.val) e, row_eq k.isLt]
  refine congrArg₂ (· * ·) (congrArg _ ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

end Cert.ReferenceIdeal.RefValue

end
-- ==== Proof.RealInputs.lean ====
/-
  The precondition gives real inputs. The predicate compares, entry by entry, the absolute value of each of the nine
  argument arrays with +∞ (the f32 word 0x7F800000), takes the conjunction over each whole array and joins the nine
  results. If the result is 1 then every entry x of every array has |x| = max x (−x) < +∞; on the extended reals that
  excludes x = −∞ and x = +∞ (for both, max x (−x) = +∞), so x is a real number.
-/
import proofs.«118870_j18597208392097_2_alg».proof.Defs
import proofs.«118870_j18597208392097_2_alg».proof.Proof.Gen.Pre_finite_inputs
import proofs.«118870_j18597208392097_2_alg».proof.Proof.AttentionSpec
import Idealize.ShloMosaic.Lib.ReduceAll

noncomputable section

namespace Cert.Proof.RealInputs

open Idealize.ShloMosaic Idealize.ShloMosaic.ValueIdx Idealize.SL.Sem Cert.AttentionSpec Cert.Pre_finite_inputs

/-- The shape of a scalar has one index. -/
instance subsingleton_S_ : Subsingleton S_.Idx := ⟨fun a b => funext fun d => d.elim0⟩

/-- The f32 word 0x7F800000 denotes +∞. -/
theorem inf_word : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : x = ((x.toReal : ℝ) : EReal) := by
  rw [inf_word] at h
  induction x using EReal.rec with
  | bot => simp [Ideal.cmp] at h
  | coe r => rw [EReal.toReal_coe]
  | top => simp [Ideal.cmp] at h

/-- One array: if the conjunction over all entries of |x| < +∞ is 1, every entry is a real number. -/
theorem isReal_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ix0 = 1#1) :
    IsReal a := by
  intro i
  exact real_of_abs_lt (a i) (Host.reduce_andi_all _ _ hr hu ix0 h i)

variable [Cert.Pre_finite_inputs.Facts]

/-- The predicate decoded: if it is 1 on nine arrays, all nine hold real numbers. -/
theorem real_of_fn (a0 a1 a2 : FVec Ideal S4x2048x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 : FVec Ideal S1024 .f32)
    (h : Cert.Pre_finite_inputs.fn (F := Ideal) a0 a1 a2 a3 a4 a5 a6 a7 a8 = (fun _ => 1#1)) :
    IsReal a0 ∧ IsReal a1 ∧ IsReal a2 ∧ IsReal a3 ∧ IsReal a4 ∧ IsReal a5 ∧ IsReal a6 ∧ IsReal a7 ∧ IsReal a8 := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨h0, h1⟩, h2⟩, h3⟩, h4⟩, h5⟩, h6⟩, h7⟩, h8⟩ := e
  exact ⟨isReal_of_all a0 _ _ _ h0, isReal_of_all a1 _ _ _ h1, isReal_of_all a2 _ _ _ h2, isReal_of_all a3 _ _ _ h3,
    isReal_of_all a4 _ _ _ h4, isReal_of_all a5 _ _ _ h5, isReal_of_all a6 _ _ _ h6, isReal_of_all a7 _ _ _ h7,
    isReal_of_all a8 _ _ _ h8⟩

/-- The launch memory's nine argument arrays, on every device, hold real numbers. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg1))
      ∧ IsReal (m ((c.tc : Thread Cert.KernelIdeal.nD Cert.KernelIdeal.τ).loc Cert.KernelIdeal.main_arg2))
      ∧ IsReal (m ((c.tc : Thread Cert.KernelIdeal.nD Cert.KernelIdeal.τ).loc Cert.KernelIdeal.main_arg3))
      ∧ IsReal (m ((c.tc : Thread Cert.KernelIdeal.nD Cert.KernelIdeal.τ).loc Cert.KernelIdeal.main_arg4))
      ∧ IsReal (m ((c.tc : Thread Cert.KernelIdeal.nD Cert.KernelIdeal.τ).loc Cert.KernelIdeal.main_arg5))
      ∧ IsReal (m ((c.tc : Thread Cert.KernelIdeal.nD Cert.KernelIdeal.τ).loc Cert.KernelIdeal.main_arg6))
      ∧ IsReal (m ((c.tc : Thread Cert.KernelIdeal.nD Cert.KernelIdeal.τ).loc Cert.KernelIdeal.main_arg7))
      ∧ IsReal (m ((c.tc : Thread Cert.KernelIdeal.nD Cert.KernelIdeal.τ).loc Cert.KernelIdeal.main_arg8)) :=
  real_of_fn _ _ _ _ _ _ _ _ _ (hpre c)

end Cert.Proof.RealInputs

end
-- ==== Proof.lean ====
/-
  The proof of `Cert.Claim`: the fused attention kernel and its reference compute the same array over the extended
  reals.

  Both programs take queries, keys and values q, k, v (4 batches of 2048 rows of 1024 numbers) and three dense layers
  (W, b). The reference forms the three projections x·W + b, the scores (qp·kpᵀ)/√1024, a softmax over each row of
  scores (subtracting the row maximum) and the weighted sum of the projected values. The kernel works one tile of 256
  query rows at a time: at a batch's first tile it projects the batch's keys and values once into two scratch arrays,
  which the other seven tiles of the batch read; it scales the projected queries by 2⁻⁵ = 1/√1024 before the score
  product instead of after it, and takes the softmax in one pass over four blocks of 512 keys with a running maximum,
  sum and weighted sum, dividing at the end.

  When the inputs are real numbers (the precondition) every intermediate value is a real number, the scale moves across
  the finite sum of the score product, and a softmax-weighted mean does not depend on the number subtracted from the
  scores — the row maximum or the running maximum — because a change of that number multiplies numerator and denominator
  by the same positive factor. So both results are the quotient (Σ_n e^(z n) · h n) / (Σ_n e^(z n)) of AttentionSpec.

  The three frame claims are the generated frame certificates (the reference's is its generated run with the result
  dropped); the kernel is its own idealization (no rewrite was applied), so that claim is trivial.
-/
import proofs.«118870_j18597208392097_2_alg».proof.Defs
import proofs.«118870_j18597208392097_2_alg».proof.Proof.Gen.Kernel
import proofs.«118870_j18597208392097_2_alg».proof.Proof.Gen.Kernel.Skeleton
import proofs.«118870_j18597208392097_2_alg».proof.Proof.Gen.Kernel.Launch
import proofs.«118870_j18597208392097_2_alg».proof.Proof.Gen.Kernel.Points
import proofs.«118870_j18597208392097_2_alg».proof.Proof.Gen.Kernel.Frame
import proofs.«118870_j18597208392097_2_alg».proof.Proof.Gen.KernelIdeal
import proofs.«118870_j18597208392097_2_alg».proof.Proof.Gen.KernelIdeal.Skeleton
import proofs.«118870_j18597208392097_2_alg».proof.Proof.Gen.KernelIdeal.Launch
import proofs.«118870_j18597208392097_2_alg».proof.Proof.Gen.KernelIdeal.Points
import proofs.«118870_j18597208392097_2_alg».proof.Proof.Gen.KernelIdeal.Frame
import proofs.«118870_j18597208392097_2_alg».proof.Proof.Gen.ReferenceIdeal
import proofs.«118870_j18597208392097_2_alg».proof.Proof.Gen.Pre_finite_inputs
import proofs.«118870_j18597208392097_2_alg».proof.Proof.Gen.KernelIdeal.Value
import proofs.«118870_j18597208392097_2_alg».proof.Proof.Gen.ReferenceIdeal.Run
import proofs.«118870_j18597208392097_2_alg».proof.Proof.Gen.ReferenceIdeal.Read
import proofs.«118870_j18597208392097_2_alg».proof.Proof.KernelPoint
import proofs.«118870_j18597208392097_2_alg».proof.Proof.ReferenceValue
import proofs.«118870_j18597208392097_2_alg».proof.Proof.RealInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments, all real numbers, both programs end with the attention array of
    AttentionSpec: the kernel by its run read block by block, the reference by its run read one operation at a time. -/
theorem algebraic : Cert.algebraic_KernelIdeal_ReferenceIdeal := by
  intro m ρ m' ρ' hpre hagree
  have hr := Cert.Proof.RealInputs.real_inputs m hpre
  refine ⟨fun c => Cert.KernelIdeal.KValue.result m c, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r2, r3, r4, r5, r6, r7, r8⟩ := hr c
  rw [Cert.ReferenceIdeal.Read.val_main_v28_eq, a0, a1, a2, a3, a4, a5, a6, a7, a8]
  exact Cert.ReferenceIdeal.RefValue.reference_eq_G _ _ _ _ _ _ _ _ _ r0 r1 r2 r3 r4 r5 r6 r7 r8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
